-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x1 : Shape := ⟨2, ![1048576, 1]⟩
abbrev S20x1 : Shape := ⟨2, ![20, 1]⟩
abbrev S20 : Shape := ⟨1, ![20]⟩
abbrev S20x20 : Shape := ⟨2, ![20, 20]⟩
abbrev S1x20 : Shape := ⟨2, ![1, 20]⟩
abbrev S1 : Shape := ⟨1, ![1]⟩
abbrev S_ : Shape := ⟨0, ![]⟩

class Facts : Prop where
  bcast_S_S1048576x1 : S_.BroadcastsInDim S1048576x1 (![] : Fin 0 → Fin S1048576x1.rank)
  reducesTo_S1048576x1_S_d0_1 : S1048576x1.ReducesTo [0, 1] S_
  h_S_ : 0 < S_.numel
  bcast_S_S20x1 : S_.BroadcastsInDim S20x1 (![] : Fin 0 → Fin S20x1.rank)
  reducesTo_S20x1_S_d0_1 : S20x1.ReducesTo [0, 1] S_
  bcast_S_S20 : S_.BroadcastsInDim S20 (![] : Fin 0 → Fin S20.rank)
  reducesTo_S20_S_d0 : S20.ReducesTo [0] S_
  bcast_S_S20x20 : S_.BroadcastsInDim S20x20 (![] : Fin 0 → Fin S20x20.rank)
  reducesTo_S20x20_S_d0_1 : S20x20.ReducesTo [0, 1] S_
  bcast_S_S1x20 : S_.BroadcastsInDim S1x20 (![] : Fin 0 → Fin S1x20.rank)
  reducesTo_S1x20_S_d0_1 : S1x20.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S20 .f32) (main_arg15 : FVec F S1x20 .f32) (main_arg16 : FVec F S1 .f32) (main_v63 : IVec S_ 1) (main_v67 : IVec S_ 1) : IVec S_ 1 :=
  let main_v68 : IVec S_ 1 := andi main_v63 main_v67
  let main_v69 : FVec F S20 .f32 := Host.absf main_arg14
  let main_cst_26 : FVec F S_ .f32 := constant S_ .f32 0x7F800000#32
  let main_v70 : FVec F S20 .f32 := broadcastInDim S20 ![] bcast_S_S20 main_cst_26
  let main_v71 : IVec S20 1 := cmpf .olt main_v69 main_v70
  let main_c_27 : IVec S_ 1 := constantI S_ 1 1#1
  let main_v72 : IVec S_ 1 := (fun x v => Host.reduce IntOp.andi x v reducesTo_S20_S_d0 h_S_) main_v71 main_c_27
  let main_v73 : IVec S_ 1 := andi main_v68 main_v72
  let main_v74 : FVec F S1x20 .f32 := Host.absf main_arg15
  let main_cst_28 : FVec F S_ .f32 := constant S_ .f32 0x7F800000#32
  let main_v75 : FVec F S1x20 .f32 := broadcastInDim S1x20 ![] bcast_S_S1x20 main_cst_28
  let main_v76 : IVec S1x20 1 := cmpf .olt main_v74 main_v75
  let main_c_29 : IVec S_ 1 := constantI S_ 1 1#1
  let main_v77 : IVec S_ 1 := (fun x v => Host.reduce IntOp.andi x v reducesTo_S1x20_S_d0_1 h_S_) main_v76 main_c_29
  let main_v78 : IVec S_ 1 := andi main_v73 main_v77
  let main_v79 : FVec F S1 .f32 := Host.absf main_arg16
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg11 : FVec F S20x20 .f32) (main_arg12 : FVec F S20 .f32) (main_arg13 : FVec F S20x20 .f32) (main_arg14 : FVec F S20 .f32) (main_arg15 : FVec F S1x20 .f32) (main_arg16 : FVec F S1 .f32) (main_v48 : IVec S_ 1) (main_v49 : FVec F S20 .f32) (main_v50 : FVec F S20 .f32) : IVec S_ 1 :=
  let main_v51 : IVec S20 1 := cmpf .olt main_v49 main_v50
  let main_c_19 : IVec S_ 1 := constantI S_ 1 1#1
  let main_v52 : IVec S_ 1 := (fun x v => Host.reduce IntOp.andi x v reducesTo_S20_S_d0 h_S_) main_v51 main_c_19
  let main_v53 : IVec S_ 1 := andi main_v48 main_v52
  let main_v54 : FVec F S20x20 .f32 := Host.absf main_arg11
  let main_cst_20 : FVec F S_ .f32 := constant S_ .f32 0x7F800000#32
  let main_v55 : FVec F S20x20 .f32 := broadcastInDim S20x20 ![] bcast_S_S20x20 main_cst_20
  let main_v56 : IVec S20x20 1 := cmpf .olt main_v54 main_v55
  let main_c_21 : IVec S_ 1 := constantI S_ 1 1#1
  let main_v57 : IVec S_ 1 := (fun x v => Host.reduce IntOp.andi x v reducesTo_S20x20_S_d0_1 h_S_) main_v56 main_c_21
  let main_v58 : IVec S_ 1 := andi main_v53 main_v57
  let main_v59 : FVec F S20 .f32 := Host.absf main_arg12
  let main_cst_22 : FVec F S_ .f32 := constant S_ .f32 0x7F800000#32
  let main_v60 : FVec F S20 .f32 := broadcastInDim S20 ![] bcast_S_S20 main_cst_22
  let main_v61 : IVec S20 1 := cmpf .olt main_v59 main_v60
  let main_c_23 : IVec S_ 1 := constantI S_ 1 1#1
  let main_v62 : IVec S_ 1 := (fun x v => Host.reduce IntOp.andi x v reducesTo_S20_S_d0 h_S_) main_v61 main_c_23
  let main_v63 : IVec S_ 1 := andi main_v58 main_v62
  let main_v64 : FVec F S20x20 .f32 := Host.absf main_arg13
  let main_cst_24 : FVec F S_ .f32 := constant S_ .f32 0x7F800000#32
  let main_v65 : FVec F S20x20 .f32 := broadcastInDim S20x20 ![] bcast_S_S20x20 main_cst_24
  let main_v66 : IVec S20x20 1 := cmpf .olt main_v64 main_v65
  let main_c_25 : IVec S_ 1 := constantI S_ 1 1#1
  let main_v67 : IVec S_ 1 := (fun x v => Host.reduce IntOp.andi x v reducesTo_S20x20_S_d0_1 h_S_) main_v66 main_c_25
  fn_part4 (F := F) main_arg14 main_arg15 main_arg16 main_v63 main_v67

def fn_part2 {F : FTy → Type} [FloatOps F] (main_arg7 : FVec F S20x20 .f32) (main_arg8 : FVec F S20 .f32) (main_arg9 : FVec F S20x20 .f32) (main_arg10 : FVec F S20 .f32) (main_arg11 : FVec F S20x20 .f32) (main_arg12 : FVec F S20 .f32) (main_arg13 : FVec F S20x20 .f32) (main_arg14 : FVec F S20 .f32) (main_arg15 : FVec F S1x20 .f32) (main_arg16 : FVec F S1 .f32) (main_v33 : IVec S_ 1) : IVec S_ 1 :=
  let main_v34 : FVec F S20x20 .f32 := Host.absf main_arg7
  let main_cst_12 : FVec F S_ .f32 := constant S_ .f32 0x7F800000#32
  let main_v35 : FVec F S20x20 .f32 := broadcastInDim S20x20 ![] bcast_S_S20x20 main_cst_12
  let main_v36 : IVec S20x20 1 := cmpf .olt main_v34 main_v35
  let main_c_13 : IVec S_ 1 := constantI S_ 1 1#1
  let main_v37 : IVec S_ 1 := (fun x v => Host.reduce IntOp.andi x v reducesTo_S20x20_S_d0_1 h_S_) main_v36 main_c_13
  let main_v38 : IVec S_ 1 := andi main_v33 main_v37
  let main_v39 : FVec F S20 .f32 := Host.absf main_arg8
  let main_cst_14 : FVec F S_ .f32 := constant S_ .f32 0x7F800000#32
  let main_v40 : FVec F S20 .f32 := broadcastInDim S20 ![] bcast_S_S20 main_cst_14
  let main_v41 : IVec S20 1 := cmpf .olt main_v39 main_v40
  let main_c_15 : IVec S_ 1 := constantI S_ 1 1#1
  let main_v42 : IVec S_ 1 := (fun x v => Host.reduce IntOp.andi x v reducesTo_S20_S_d0 h_S_) main_v41 main_c_15
  let main_v43 : IVec S_ 1 := andi main_v38 main_v42
  let main_v44 : FVec F S20x20 .f32 := Host.absf main_arg9
  let main_cst_16 : FVec F S_ .f32 := constant S_ .f32 0x7F800000#32
  let main_v45 : FVec F S20x20 .f32 := broadcastInDim S20x20 ![] bcast_S_S20x20 main_cst_16
  let main_v46 : IVec S20x20 1 := cmpf .olt main_v44 main_v45
  let main_c_17 : IVec S_ 1 := constantI S_ 1 1#1
  let main_v47 : IVec S_ 1 := (fun x v => Host.reduce IntOp.andi x v reducesTo_S20x20_S_d0_1 h_S_) main_v46 main_c_17
  let main_v48 : IVec S_ 1 := andi main_v43 main_v47
  let main_v49 : FVec F S20 .f32 := Host.absf main_arg10
  let main_cst_18 : FVec F S_ .f32 := constant S_ .f32 0x7F800000#32
  let main_v50 : FVec F S20 .f32 := broadcastInDim S20 ![] bcast_S_S20 main_cst_18
  fn_part3 (F := F) main_arg11 main_arg12 main_arg13 main_arg14 main_arg15 main_arg16 main_v48 main_v49 main_v50

def fn_part1 {F : FTy → Type} [FloatOps F] (main_arg4 : FVec F S20 .f32) (main_arg5 : FVec F S20x20 .f32) (main_arg6 : FVec F S20 .f32) (main_arg7 : FVec F S20x20 .f32) (main_arg8 : FVec F S20 .f32) (main_arg9 : FVec F S20x20 .f32) (main_arg10 : FVec F S20 .f32) (main_arg11 : FVec F S20x20 .f32) (main_arg12 : FVec F S20 .f32) (main_arg13 : FVec F S20x20 .f32) (main_arg14 : FVec F S20 .f32) (main_arg15 : FVec F S1x20 .f32) (main_arg16 : FVec F S1 .f32) (main_v13 : IVec S_ 1) (main_v16 : IVec S20x20 1) : IVec S_ 1 :=
  let main_c_5 : IVec S_ 1 := constantI S_ 1 1#1
  let main_v17 : IVec S_ 1 := (fun x v => Host.reduce IntOp.andi x v reducesTo_S20x20_S_d0_1 h_S_) main_v16 main_c_5
  let main_v18 : IVec S_ 1 := andi main_v13 main_v17
  let main_v19 : FVec F S20 .f32 := Host.absf main_arg4
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_v24 : FVec F S20x20 .f32 := Host.absf main_arg5
  let main_cst_8 : FVec F S_ .f32 := constant S_ .f32 0x7F800000#32
  let main_v25 : FVec F S20x20 .f32 := broadcastInDim S20x20 ![] bcast_S_S20x20 main_cst_8
  let main_v26 : IVec S20x20 1 := cmpf .olt main_v24 main_v25
  let main_c_9 : IVec S_ 1 := constantI S_ 1 1#1
  let main_v27 : IVec S_ 1 := (fun x v => Host.reduce IntOp.andi x v reducesTo_S20x20_S_d0_1 h_S_) main_v26 main_c_9
  let main_v28 : IVec S_ 1 := andi main_v23 main_v27
  let main_v29 : FVec F S20 .f32 := Host.absf main_arg6
  let main_cst_10 : FVec F S_ .f32 := constant S_ .f32 0x7F800000#32
  let main_v30 : FVec F S20 .f32 := broadcastInDim S20 ![] bcast_S_S20 main_cst_10
  let main_v31 : IVec S20 1 := cmpf .olt main_v29 main_v30
  let main_c_11 : IVec S_ 1 := constantI S_ 1 1#1
  let main_v32 : IVec S_ 1 := (fun x v => Host.reduce IntOp.andi x v reducesTo_S20_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S1048576x1 .f32) (main_arg1 : FVec F S20x1 .f32) (main_arg2 : FVec F S20 .f32) (main_arg3 : FVec F S20x20 .f32) (main_arg4 : FVec F S20 .f32) (main_arg5 : FVec F S20x20 .f32) (main_arg6 : FVec F S20 .f32) (main_arg7 : FVec F S20x20 .f32) (main_arg8 : FVec F S20 .f32) (main_arg9 : FVec F S20x20 .f32) (main_arg10 : FVec F S20 .f32) (main_arg11 : FVec F S20x20 .f32) (main_arg12 : FVec F S20 .f32) (main_arg13 : FVec F S20x20 .f32) (main_arg14 : FVec F S20 .f32) (main_arg15 : FVec F S1x20 .f32) (main_arg16 : FVec F S1 .f32) : IVec S_ 1 :=
  let main_v0 : FVec F S1048576x1 .f32 := Host.absf main_arg0
  let main_cst : FVec F S_ .f32 := constant S_ .f32 0x7F800000#32
  let main_v1 : FVec F S1048576x1 .f32 := broadcastInDim S1048576x1 ![] bcast_S_S1048576x1 main_cst
  let main_v2 : IVec S1048576x1 1 := cmpf .olt main_v0 main_v1
  let main_c : IVec S_ 1 := constantI S_ 1 1#1
  let main_v3 : IVec S_ 1 := (fun x v => Host.reduce IntOp.andi x v reducesTo_S1048576x1_S_d0_1 h_S_) main_v2 main_c
  let main_v4 : FVec F S20x1 .f32 := Host.absf main_arg1
  let main_cst_0 : FVec F S_ .f32 := constant S_ .f32 0x7F800000#32
  let main_v5 : FVec F S20x1 .f32 := broadcastInDim S20x1 ![] bcast_S_S20x1 main_cst_0
  let main_v6 : IVec S20x1 1 := cmpf .olt main_v4 main_v5
  let main_c_1 : IVec S_ 1 := constantI S_ 1 1#1
  let main_v7 : IVec S_ 1 := (fun x v => Host.reduce IntOp.andi x v reducesTo_S20x1_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S20x20 .f32 := Host.absf main_arg3
  let main_cst_4 : FVec F S_ .f32 := constant S_ .f32 0x7F800000#32
  let main_v15 : FVec F S20x20 .f32 := broadcastInDim S20x20 ![] bcast_S_S20x20 main_cst_4
  let main_v16 : IVec S20x20 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S1048576x1 : Shape := ⟨2, ![1048576, 1]⟩
abbrev S20x1 : Shape := ⟨2, ![20, 1]⟩
abbrev S20 : Shape := ⟨1, ![20]⟩
abbrev S20x20 : Shape := ⟨2, ![20, 20]⟩
abbrev S1x20 : Shape := ⟨2, ![1, 20]⟩
abbrev S1 : Shape := ⟨1, ![1]⟩
abbrev S1x1 : Shape := ⟨2, ![1, 1]⟩
abbrev S1x1048576 : Shape := ⟨2, ![1, 1048576]⟩
abbrev S1x131072 : Shape := ⟨2, ![1, 131072]⟩
abbrev S20x131072 : Shape := ⟨2, ![20, 131072]⟩

abbrev nBuf : Space → Nat
  | .hbm => 28
  | .vmem => 20
  | .smem => 0
  | _ => 0

abbrev bufTy : (tb : Table) → Fin (tcTables nBuf tb) → BufTy
  | .hbm, ⟨0, _⟩ => ⟨S1048576x1, .f32⟩
  | .hbm, ⟨1, _⟩ => ⟨S20x1, .f32⟩
  | .hbm, ⟨2, _⟩ => ⟨S20, .f32⟩
  | .hbm, ⟨3, _⟩ => ⟨S20x20, .f32⟩
  | .hbm, ⟨4, _⟩ => ⟨S20, .f32⟩
  | .hbm, ⟨5, _⟩ => ⟨S20x20, .f32⟩
  | .hbm, ⟨6, _⟩ => ⟨S20, .f32⟩
  | .hbm, ⟨7, _⟩ => ⟨S20x20, .f32⟩
  | .hbm, ⟨8, _⟩ => ⟨S20, .f32⟩
  | .hbm, ⟨9, _⟩ => ⟨S20x20, .f32⟩
  | .hbm, ⟨10, _⟩ => ⟨S20, .f32⟩
  | .hbm, ⟨11, _⟩ => ⟨S20x20, .f32⟩
  | .hbm, ⟨12, _⟩ => ⟨S20, .f32⟩
  | .hbm, ⟨13, _⟩ => ⟨S20x20, .f32⟩
  | .hbm, ⟨14, _⟩ => ⟨S20, .f32⟩
  | .hbm, ⟨15, _⟩ => ⟨S1x20, .f32⟩
  | .hbm, ⟨16, _⟩ => ⟨S1, .f32⟩
  | .hbm, ⟨17, _⟩ => ⟨S20x1, .f32⟩
  | .hbm, ⟨18, _⟩ => ⟨S20x1, .f32⟩
  | .hbm, ⟨19, _⟩ => ⟨S20x1, .f32⟩
  | .hbm, ⟨20, _⟩ => ⟨S20x1, .f32⟩
  | .hbm, ⟨21, _⟩ => ⟨S20x1, .f32⟩
  | .hbm, ⟨22, _⟩ => ⟨S20x1, .f32⟩
  | .hbm, ⟨23, _⟩ => ⟨S20x1, .f32⟩
  | .hbm, ⟨24, _⟩ => ⟨S1x1, .f32⟩
  | .hbm, ⟨25, _⟩ => ⟨S1x1048576, .f32⟩
  | .hbm, ⟨26, _⟩ => ⟨S1x1048576, .f32⟩
  | .hbm, ⟨27, _⟩ => ⟨S1048576x1, .f32⟩
  | .local _ .vmem, ⟨0, _⟩ => ⟨S1x131072, .f32⟩
  | .local _ .vmem, ⟨1, _⟩ => ⟨S1x131072, .f32⟩
  | .local _ .vmem, ⟨2, _⟩ => ⟨S20x1, .f32⟩
  | .local _ .vmem, ⟨3, _⟩ => ⟨S20x20, .f32⟩
  | .local _ .vmem, ⟨4, _⟩ => ⟨S20x20, .f32⟩
  | .local _ .vmem, ⟨5, _⟩ => ⟨S20x20, .f32⟩
  | .local _ .vmem, ⟨6, _⟩ => ⟨S20x20, .f32⟩
  | .local _ .vmem, ⟨7, _⟩ => ⟨S20x20, .f32⟩
  | .local _ .vmem, ⟨8, _⟩ => ⟨S20x20, .f32⟩
  | .local _ .vmem, ⟨9, _⟩ => ⟨S1x20, .f32⟩
  | .local _ .vmem, ⟨10, _⟩ => ⟨S20x1, .f32⟩
  | .local _ .vmem, ⟨11, _⟩ => ⟨S20x1, .f32⟩
  | .local _ .vmem, ⟨12, _⟩ => ⟨S20x1, .f32⟩
  | .local _ .vmem, ⟨13, _⟩ => ⟨S20x1, .f32⟩
  | .local _ .vmem, ⟨14, _⟩ => ⟨S20x1, .f32⟩
  | .local _ .vmem, ⟨15, _⟩ => ⟨S20x1, .f32⟩
  | .local _ .vmem, ⟨16, _⟩ => ⟨S20x1, .f32⟩
  | .local _ .vmem, ⟨17, _⟩ => ⟨S1x1, .f32⟩
  | .local _ .vmem, ⟨18, _⟩ => ⟨S1x131072, .f32⟩
  | .local _ .vmem, ⟨19, _⟩ => ⟨S1x131072, .f32⟩
  | _, _ => ⟨S1048576x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S20x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S20x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S20x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S20x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S20x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S20x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S20x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S20x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x131072 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  shapeCasts_S20_S20x1 : S20.ShapeCasts S20x1
  shapeCasts_S1_S1x1 : S1.ShapeCasts S1x1
  shapeCasts_S1048576x1_S1x1048576 : S1048576x1.ShapeCasts S1x1048576
  inb_S1x131072_S1x131072_0_0 : ∀ a, (![0, 0] : Fin 2 → Nat) a + S1x131072.size a ≤ S1x131072.size a
  h_S1x131072 : 0 < S1x131072.numel
  shapeCasts_S1x131072_S1x131072 : S1x131072.ShapeCasts S1x131072
  inb_S20x1_S20x1_0_0 : ∀ a, (![0, 0] : Fin 2 → Nat) a + S20x1.size a ≤ S20x1.size a
  h_S20x1 : 0 < S20x1.numel
  shapeCasts_S20x1_S20x1 : S20x1.ShapeCasts S20x1
  broadcasts_S20x1_S20x131072 : S20x1.Broadcasts S20x131072
  inb_S20x20_S20x20_0_0 : ∀ a, (![0, 0] : Fin 2 → Nat) a + S20x20.size a ≤ S20x20.size a
  h_S20x20 : 0 < S20x20.numel
  inb_S1x20_S1x20_0_0 : ∀ a, (![0, 0] : Fin 2 → Nat) a + S1x20.size a ≤ S1x20.size a
  h_S1x20 : 0 < S1x20.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x131072 : S1x1.Broadcasts S1x131072
  shapeCasts_S1x1048576_S1048576x1 : S1x1048576.ShapeCasts S1048576x1
  dot_S20x1_S1x131072_S20x131072_1_0_0_1_n_n_wf : DotDims.WF S20x1 S1x131072 S20x131072 [1] [0] [0] [1] [] []
  dot_S20x20_S20x131072_S20x131072_1_0_0_1_n_n_wf : DotDims.WF S20x20 S20x131072 S20x131072 [1] [0] [0] [1] [] []
  dot_S1x20_S20x131072_S1x131072_1_0_0_1_n_n_wf : DotDims.WF S1x20 S20x131072 S1x131072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x131072.size a ≤ S1x1048576.size a
  hwx0_0 : ∀ i : grid0.Coords, EltTy.bits .f32 = 32 ∨ (Rect.block (s := S1x1048576) S1x131072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x1.size a ≤ S20x1.size a
  hwx0_1 : ∀ i : grid0.Coords, EltTy.bits .f32 = 32 ∨ (Rect.block (s := S20x1) S20x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x20.size a ≤ S20x20.size a
  hwx0_2 : ∀ i : grid0.Coords, EltTy.bits .f32 = 32 ∨ (Rect.block (s := S20x20) S20x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x20.size a ≤ S20x20.size a
  hwx0_3 : ∀ i : grid0.Coords, EltTy.bits .f32 = 32 ∨ (Rect.block (s := S20x20) S20x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x20.size a ≤ S20x20.size a
  hwx0_4 : ∀ i : grid0.Coords, EltTy.bits .f32 = 32 ∨ (Rect.block (s := S20x20) S20x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20x20.size a ≤ S20x20.size a
  hwx0_5 : ∀ i : grid0.Coords, EltTy.bits .f32 = 32 ∨ (Rect.block (s := S20x20) S20x20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S20x20.size a ≤ S20x20.size a
  hwx0_6 : ∀ i : grid0.Coords, EltTy.bits .f32 = 32 ∨ (Rect.block (s := S20x20) S20x20.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S20x20.size a ≤ S20x20.size a
  hwx0_7 : ∀ i : grid0.Coords, EltTy.bits .f32 = 32 ∨ (Rect.block (s := S20x20) S20x20.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x20.size a ≤ S1x20.size a
  hwx0_8 : ∀ i : grid0.Coords, EltTy.bits .f32 = 32 ∨ (Rect.block (s := S1x20) S1x20.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S20x1.size a ≤ S20x1.size a
  hwx0_9 : ∀ i : grid0.Coords, EltTy.bits .f32 = 32 ∨ (Rect.block (s := S20x1) S20x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S20x1.size a ≤ S20x1.size a
  hwx0_10 : ∀ i : grid0.Coords, EltTy.bits .f32 = 32 ∨ (Rect.block (s := S20x1) S20x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S20x1.size a ≤ S20x1.size a
  hwx0_11 : ∀ i : grid0.Coords, EltTy.bits .f32 = 32 ∨ (Rect.block (s := S20x1) S20x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S20x1.size a ≤ S20x1.size a
  hwx0_12 : ∀ i : grid0.Coords, EltTy.bits .f32 = 32 ∨ (Rect.block (s := S20x1) S20x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S20x1.size a ≤ S20x1.size a
  hwx0_13 : ∀ i : grid0.Coords, EltTy.bits .f32 = 32 ∨ (Rect.block (s := S20x1) S20x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S20x1.size a ≤ S20x1.size a
  hwx0_14 : ∀ i : grid0.Coords, EltTy.bits .f32 = 32 ∨ (Rect.block (s := S20x1) S20x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S20x1.size a ≤ S20x1.size a
  hwx0_15 : ∀ i : grid0.Coords, EltTy.bits .f32 = 32 ∨ (Rect.block (s := S20x1) S20x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x131072.size a ≤ S1x1048576.size a
  hwx0_17 : ∀ i : grid0.Coords, EltTy.bits .f32 = 32 ∨ (Rect.block (s := S1x1048576) S1x131072.size (cc0_transform_17 i) (hinb0_17 i)).WholeWords (EltTy.packing .f32)

variable [Facts₀]

def dot_S20x1_S1x131072_S20x131072_1_0_0_1_n_n : DotDims S20x1 S1x131072 S20x131072 where
  lhsContracting := [1]
  rhsContracting := [0]
  lhsNonContracting := [0]
  rhsNonContracting := [1]
  lhsBatch := []
  rhsBatch := []
  wf := dot_S20x1_S1x131072_S20x131072_1_0_0_1_n_n_wf
def dot_S20x20_S20x131072_S20x131072_1_0_0_1_n_n : DotDims S20x20 S20x131072 S20x131072 where
  lhsContracting := [1]
  rhsContracting := [0]
  lhsNonContracting := [0]
  rhsNonContracting := [1]
  lhsBatch := []
  rhsBatch := []
  wf := dot_S20x20_S20x131072_S20x131072_1_0_0_1_n_n_wf
def dot_S1x20_S20x131072_S1x131072_1_0_0_1_n_n : DotDims S1x20 S20x131072 S1x131072 where
  lhsContracting := [1]
  rhsContracting := [0]
  lhsNonContracting := [0]
  rhsNonContracting := [1]
  lhsBatch := []
  rhsBatch := []
  wf := dot_S1x20_S20x131072_S1x131072_1_0_0_1_n_n_wf

abbrev win0_0 : Pipeline.Window sig grid0 :=
  Pipeline.Window.ofSpec (Memref.whole main_v8) S1x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S20x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S20x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S20x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S20x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S20x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S20x20.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg15) S1x20.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S20x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S20x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S20x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S20x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v4) S20x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v5) S20x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v6) S20x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v7) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v9) S1x131072.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S1048576x1 : Shape := ⟨2, ![1048576, 1]⟩
abbrev S20x1 : Shape := ⟨2, ![20, 1]⟩
abbrev S20 : Shape := ⟨1, ![20]⟩
abbrev S20x20 : Shape := ⟨2, ![20, 20]⟩
abbrev S1x20 : Shape := ⟨2, ![1, 20]⟩
abbrev S1 : Shape := ⟨1, ![1]⟩
abbrev S1048576x20 : Shape := ⟨2, ![1048576, 20]⟩
abbrev S_ : Shape := ⟨0, ![]⟩
abbrev S1x1 : Shape := ⟨2, ![1, 1]⟩

abbrev nBuf : Space → Nat
  | .hbm => 120
  | .vmem => 0
  | .smem => 0
  | _ => 0

abbrev bufTy : (tb : Table) → Fin (tcTables nBuf tb) → BufTy
  | .hbm, ⟨0, _⟩ => ⟨S1048576x1, .f32⟩
  | .hbm, ⟨1, _⟩ => ⟨S20x1, .f32⟩
  | .hbm, ⟨2, _⟩ => ⟨S20, .f32⟩
  | .hbm, ⟨3, _⟩ => ⟨S20x20, .f32⟩
  | .hbm, ⟨4, _⟩ => ⟨S20, .f32⟩
  | .hbm, ⟨5, _⟩ => ⟨S20x20, .f32⟩
  | .hbm, ⟨6, _⟩ => ⟨S20, .f32⟩
  | .hbm, ⟨7, _⟩ => ⟨S20x20, .f32⟩
  | .hbm, ⟨8, _⟩ => ⟨S20, .f32⟩
  | .hbm, ⟨9, _⟩ => ⟨S20x20, .f32⟩
  | .hbm, ⟨10, _⟩ => ⟨S20, .f32⟩
  | .hbm, ⟨11, _⟩ => ⟨S20x20, .f32⟩
  | .hbm, ⟨12, _⟩ => ⟨S20, .f32⟩
  | .hbm, ⟨13, _⟩ => ⟨S20x20, .f32⟩
  | .hbm, ⟨14, _⟩ => ⟨S20, .f32⟩
  | .hbm, ⟨15, _⟩ => ⟨S1x20, .f32⟩
  | .hbm, ⟨16, _⟩ => ⟨S1, .f32⟩
  | .hbm, ⟨17, _⟩ => ⟨S1x20, .f32⟩
  | .hbm, ⟨18, _⟩ => ⟨S1048576x20, .f32⟩
  | .hbm, ⟨19, _⟩ => ⟨S1x20, .f32⟩
  | .hbm, ⟨20, _⟩ => ⟨S1048576x20, .f32⟩
  | .hbm, ⟨21, _⟩ => ⟨S1048576x20, .f32⟩
  | .hbm, ⟨22, _⟩ => ⟨S1048576x20, .f32⟩
  | .hbm, ⟨23, _⟩ => ⟨S1048576x20, .f32⟩
  | .hbm, ⟨24, _⟩ => ⟨S_, .f32⟩
  | .hbm, ⟨25, _⟩ => ⟨S1048576x20, .f32⟩
  | .hbm, ⟨26, _⟩ => ⟨S1048576x20, .f32⟩
  | .hbm, ⟨27, _⟩ => ⟨S_, .f32⟩
  | .hbm, ⟨28, _⟩ => ⟨S1048576x20, .f32⟩
  | .hbm, ⟨29, _⟩ => ⟨S1048576x20, .f32⟩
  | .hbm, ⟨30, _⟩ => ⟨S1048576x20, .f32⟩
  | .hbm, ⟨31, _⟩ => ⟨S20x20, .f32⟩
  | .hbm, ⟨32, _⟩ => ⟨S1048576x20, .f32⟩
  | .hbm, ⟨33, _⟩ => ⟨S1x20, .f32⟩
  | .hbm, ⟨34, _⟩ => ⟨S1048576x20, .f32⟩
  | .hbm, ⟨35, _⟩ => ⟨S1048576x20, .f32⟩
  | .hbm, ⟨36, _⟩ => ⟨S1048576x20, .f32⟩
  | .hbm, ⟨37, _⟩ => ⟨S1048576x20, .f32⟩
  | .hbm, ⟨38, _⟩ => ⟨S_, .f32⟩
  | .hbm, ⟨39, _⟩ => ⟨S1048576x20, .f32⟩
  | .hbm, ⟨40, _⟩ => ⟨S1048576x20, .f32⟩
  | .hbm, ⟨41, _⟩ => ⟨S_, .f32⟩
  | .hbm, ⟨42, _⟩ => ⟨S1048576x20, .f32⟩
  | .hbm, ⟨43, _⟩ => ⟨S1048576x20, .f32⟩
  | .hbm, ⟨44, _⟩ => ⟨S1048576x20, .f32⟩
  | .hbm, ⟨45, _⟩ => ⟨S20x20, .f32⟩
  | .hbm, ⟨46, _⟩ => ⟨S1048576x20, .f32⟩
  | .hbm, ⟨47, _⟩ => ⟨S1x20, .f32⟩
  | .hbm, ⟨48, _⟩ => ⟨S1048576x20, .f32⟩
  | .hbm, ⟨49, _⟩ => ⟨S1048576x20, .f32⟩
  | .hbm, ⟨50, _⟩ => ⟨S1048576x20, .f32⟩
  | .hbm, ⟨51, _⟩ => ⟨S1048576x20, .f32⟩
  | .hbm, ⟨52, _⟩ => ⟨S_, .f32⟩
  | .hbm, ⟨53, _⟩ => ⟨S1048576x20, .f32⟩
  | .hbm, ⟨54, _⟩ => ⟨S1048576x20, .f32⟩
  | .hbm, ⟨55, _⟩ => ⟨S_, .f32⟩
  | .hbm, ⟨56, _⟩ => ⟨S1048576x20, .f32⟩
  | .hbm, ⟨57, _⟩ => ⟨S1048576x20, .f32⟩
  | .hbm, ⟨58, _⟩ => ⟨S1048576x20, .f32⟩
  | .hbm, ⟨59, _⟩ => ⟨S20x20, .f32⟩
  | .hbm, ⟨60, _⟩ => ⟨S1048576x20, .f32⟩
  | .hbm, ⟨61, _⟩ => ⟨S1x20, .f32⟩
  | .hbm, ⟨62, _⟩ => ⟨S1048576x20, .f32⟩
  | .hbm, ⟨63, _⟩ => ⟨S1048576x20, .f32⟩
  | .hbm, ⟨64, _⟩ => ⟨S1048576x20, .f32⟩
  | .hbm, ⟨65, _⟩ => ⟨S1048576x20, .f32⟩
  | .hbm, ⟨66, _⟩ => ⟨S_, .f32⟩
  | .hbm, ⟨67, _⟩ => ⟨S1048576x20, .f32⟩
  | .hbm, ⟨68, _⟩ => ⟨S1048576x20, .f32⟩
  | .hbm, ⟨69, _⟩ => ⟨S_, .f32⟩
  | .hbm, ⟨70, _⟩ => ⟨S1048576x20, .f32⟩
  | .hbm, ⟨71, _⟩ => ⟨S1048576x20, .f32⟩
  | .hbm, ⟨72, _⟩ => ⟨S1048576x20, .f32⟩
  | .hbm, ⟨73, _⟩ => ⟨S20x20, .f32⟩
  | .hbm, ⟨74, _⟩ => ⟨S1048576x20, .f32⟩
  | .hbm, ⟨75, _⟩ => ⟨S1x20, .f32⟩
  | .hbm, ⟨76, _⟩ => ⟨S1048576x20, .f32⟩
  | .hbm, ⟨77, _⟩ => ⟨S1048576x20, .f32⟩
  | .hbm, ⟨78, _⟩ => ⟨S1048576x20, .f32⟩
  | .hbm, ⟨79, _⟩ => ⟨S1048576x20, .f32⟩
  | .hbm, ⟨80, _⟩ => ⟨S_, .f32⟩
  | .hbm, ⟨81, _⟩ => ⟨S1048576x20, .f32⟩
  | .hbm, ⟨82, _⟩ => ⟨S1048576x20, .f32⟩
  | .hbm, ⟨83, _⟩ => ⟨S_, .f32⟩
  | .hbm, ⟨84, _⟩ => ⟨S1048576x20, .f32⟩
  | .hbm, ⟨85, _⟩ => ⟨S1048576x20, .f32⟩
  | .hbm, ⟨86, _⟩ => ⟨S1048576x20, .f32⟩
  | .hbm, ⟨87, _⟩ => ⟨S20x20, .f32⟩
  | .hbm, ⟨88, _⟩ => ⟨S1048576x20, .f32⟩
  | .hbm, ⟨89, _⟩ => ⟨S1x20, .f32⟩
  | .hbm, ⟨90, _⟩ => ⟨S1048576x20, .f32⟩
  | .hbm, ⟨91, _⟩ => ⟨S1048576x20, .f32⟩
  | .hbm, ⟨92, _⟩ => ⟨S1048576x20, .f32⟩
  | .hbm, ⟨93, _⟩ => ⟨S1048576x20, .f32⟩
  | .hbm, ⟨94, _⟩ => ⟨S_, .f32⟩
  | .hbm, ⟨95, _⟩ => ⟨S1048576x20, .f32⟩
  | .hbm, ⟨96, _⟩ => ⟨S1048576x20, .f32⟩
  | .hbm, ⟨97, _⟩ => ⟨S_, .f32⟩
  | .hbm, ⟨98, _⟩ => ⟨S1048576x20, .f32⟩
  | .hbm, ⟨99, _⟩ => ⟨S1048576x20, .f32⟩
  | .hbm, ⟨100, _⟩ => ⟨S1048576x20, .f32⟩
  | .hbm, ⟨101, _⟩ => ⟨S20x20, .f32⟩
  | .hbm, ⟨102, _⟩ => ⟨S1048576x20, .f32⟩
  | .hbm, ⟨103, _⟩ => ⟨S1x20, .f32⟩
  | .hbm, ⟨104, _⟩ => ⟨S1048576x20, .f32⟩
  | .hbm, ⟨105, _⟩ => ⟨S1048576x20, .f32⟩
  | .hbm, ⟨106, _⟩ => ⟨S1048576x20, .f32⟩
  | .hbm, ⟨107, _⟩ => ⟨S1048576x20, .f32⟩
  | .hbm, ⟨108, _⟩ => ⟨S_, .f32⟩
  | .hbm, ⟨109, _⟩ => ⟨S1048576x20, .f32⟩
  | .hbm, ⟨110, _⟩ => ⟨S1048576x20, .f32⟩
  | .hbm, ⟨111, _⟩ => ⟨S_, .f32⟩
  | .hbm, ⟨112, _⟩ => ⟨S1048576x20, .f32⟩
  | .hbm, ⟨113, _⟩ => ⟨S1048576x20, .f32⟩
  | .hbm, ⟨114, _⟩ => ⟨S1048576x20, .f32⟩
  | .hbm, ⟨115, _⟩ => ⟨S20x1, .f32⟩
  | .hbm, ⟨116, _⟩ => ⟨S1048576x1, .f32⟩
  | .hbm, ⟨117, _⟩ => ⟨S1x1, .f32⟩
  | .hbm, ⟨118, _⟩ => ⟨S1048576x1, .f32⟩
  | .hbm, ⟨119, _⟩ => ⟨S1048576x1, .f32⟩
  | _, _ => ⟨S1048576x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_call3_v0 : Ref sig .tc := ⟨.hbm, 64, rfl⟩
abbrev main_call3_v1 : Ref sig .tc := ⟨.hbm, 65, rfl⟩
abbrev main_call3_cst : Ref sig .tc := ⟨.hbm, 66, rfl⟩
abbrev main_call3_v2 : Ref sig .tc := ⟨.hbm, 67, rfl⟩
abbrev main_call3_v3 : Ref sig .tc := ⟨.hbm, 68, rfl⟩
abbrev main_call3_cst_0 : Ref sig .tc := ⟨.hbm, 69, rfl⟩
abbrev main_call3_v4 : Ref sig .tc := ⟨.hbm, 70, rfl⟩
abbrev main_call3_v5 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_call5_v0 : Ref sig .tc := ⟨.hbm, 92, rfl⟩
abbrev main_call5_v1 : Ref sig .tc := ⟨.hbm, 93, rfl⟩
abbrev main_call5_cst : Ref sig .tc := ⟨.hbm, 94, rfl⟩
abbrev main_call5_v2 : Ref sig .tc := ⟨.hbm, 95, rfl⟩
abbrev main_call5_v3 : Ref sig .tc := ⟨.hbm, 96, rfl⟩
abbrev main_call5_cst_0 : Ref sig .tc := ⟨.hbm, 97, rfl⟩
abbrev main_call5_v4 : Ref sig .tc := ⟨.hbm, 98, rfl⟩
abbrev main_call5_v5 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_call6_v0 : Ref sig .tc := ⟨.hbm, 106, rfl⟩
abbrev main_call6_v1 : Ref sig .tc := ⟨.hbm, 107, rfl⟩
abbrev main_call6_cst : Ref sig .tc := ⟨.hbm, 108, rfl⟩
abbrev main_call6_v2 : Ref sig .tc := ⟨.hbm, 109, rfl⟩
abbrev main_call6_v3 : Ref sig .tc := ⟨.hbm, 110, rfl⟩
abbrev main_call6_cst_0 : Ref sig .tc := ⟨.hbm, 111, rfl⟩
abbrev main_call6_v4 : Ref sig .tc := ⟨.hbm, 112, rfl⟩
abbrev main_call6_v5 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩

abbrev nD : Nat := 1
abbrev τ : Topo := Topo.v7x

variable {F : FTy → Type} [FloatOps F]

class Facts₀ : Prop where
  transposes_S20x1_S1x20_1_0 : S20x1.Transposes [1, 0] S1x20
  bcast_S20_S1x20_1 : S20.BroadcastsInDim S1x20 (![1] : Fin 1 → Fin S1x20.rank)
  bcast_S1x20_S1048576x20_0_1 : S1x20.BroadcastsInDim S1048576x20 (![0, 1] : Fin 2 → Fin S1048576x20.rank)
  bcast_S_S1048576x20 : S_.BroadcastsInDim S1048576x20 (![] : Fin 0 → Fin S1048576x20.rank)
  transposes_S20x20_S20x20_1_0 : S20x20.Transposes [1, 0] S20x20
  transposes_S1x20_S20x1_1_0 : S1x20.Transposes [1, 0] S20x1
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  dot_S1048576x1_S1x20_S1048576x20_1_0_0_1_n_n_wf : DotDims.WF S1048576x1 S1x20 S1048576x20 [1] [0] [0] [1] [] []
  dot_S1048576x20_S20x20_S1048576x20_1_0_0_1_n_n_wf : DotDims.WF S1048576x20 S20x20 S1048576x20 [1] [0] [0] [1] [] []
  dot_S1048576x20_S20x1_S1048576x1_1_0_0_1_n_n_wf : DotDims.WF S1048576x20 S20x1 S1048576x1 [1] [0] [0] [1] [] []

variable [Facts₀]

def dot_S1048576x1_S1x20_S1048576x20_1_0_0_1_n_n : DotDims S1048576x1 S1x20 S1048576x20 where
  lhsContracting := [1]
  rhsContracting := [0]
  lhsNonContracting := [0]
  rhsNonContracting := [1]
  lhsBatch := []
  rhsBatch := []
  wf := dot_S1048576x1_S1x20_S1048576x20_1_0_0_1_n_n_wf
def dot_S1048576x20_S20x20_S1048576x20_1_0_0_1_n_n : DotDims S1048576x20 S20x20 S1048576x20 where
  lhsContracting := [1]
  rhsContracting := [0]
  lhsNonContracting := [0]
  rhsNonContracting := [1]
  lhsBatch := []
  rhsBatch := []
  wf := dot_S1048576x20_S20x20_S1048576x20_1_0_0_1_n_n_wf
def dot_S1048576x20_S20x1_S1048576x1_1_0_0_1_n_n : DotDims S1048576x20 S20x1 S1048576x1 where
  lhsContracting := [1]
  rhsContracting := [0]
  lhsNonContracting := [0]
  rhsNonContracting := [1]
  lhsBatch := []
  rhsBatch := []
  wf := dot_S1048576x20_S20x1_S1048576x1_1_0_0_1_n_n_wf

class Facts : Prop extends Facts₀ where

variable [Facts]
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibColumnBroadcast.lean ====
/-
  A column broadcast across columns, read at an entry.

  An `[a, 1]` array broadcast to `[a, b]` holds, at `(p, c)`, the operand's entry `(p, 0)`: every column of the
  result is the operand's one column. Generic in the two extents and in the element type.
-/
import Idealize.ShloMosaic.Lib.Pipeline.Value
import Idealize.ShloMosaic.Lib.ValueIdx

noncomputable section

namespace ColumnBroadcast

open Idealize.ShloMosaic Idealize.ShloMosaic.ValueIdx

/-- An `[a, 1]` array broadcast to `[a, b]` reads, at `(p, c)`, the operand at `(p, 0)`. -/
theorem apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end ColumnBroadcast

end
-- ==== Proof.LibSiluSample.lean ====
/-
  Dense layers and SiLU on ONE sample, on the extended reals: the vocabulary for comparing two programs that lay a batch
  of samples out differently.

  A dense layer sends a vector x of K entries to the M entries  (sum over k of w(o,k) * x(k)) + b(o).  SiLU is
  act(z) = z * logistic(z), where logistic(z) = 1 / (1 + e^(-z)) with the usual values at the two infinities. A hidden
  layer is a dense layer followed by SiLU on every unit. The weights are a table w(o,k) and the bias a vector b(o);
  `wtab` and `bvec` read them off a weight array [M, K] and a bias array [M]. Generic in M and K.
-/
import Idealize.ShloMosaic.PureOps.Ideal
import Idealize.ShloMosaic.Lib.ValueIdx

noncomputable section

namespace SiluNet

open Idealize.ShloMosaic

/-- A dense layer on one sample: entry o is the sum over k of w(o,k) * x(k), plus b(o). -/
def dense {M K : ℕ} (w : Fin M → Fin K → EReal) (b : Fin M → EReal) (x : Fin K → EReal) : Fin M → EReal :=
  fun o => (∑ k : Fin K, w o k * x k) + b o

/-- SiLU: z times the logistic of z. -/
def act (z : EReal) : EReal := z * Ideal.logistic z

/-- A dense layer followed by SiLU on every unit. -/
def hidden {M K : ℕ} (w : Fin M → Fin K → EReal) (b : Fin M → EReal) (x : Fin K → EReal) : Fin M → EReal :=
  fun o => act (dense w b x o)

/-- A weight array [M, K] as the table w(o,k). -/
def wtab {M K : ℕ} (w : (⟨2, ![M, K]⟩ : Shape).Idx → EReal) : Fin M → Fin K → EReal :=
  fun o k => w (ValueIdx.ix2 o k)

/-- A bias [M] as the vector b(o). -/
def bvec {M : ℕ} (b : (⟨1, ![M]⟩ : Shape).Idx → EReal) : Fin M → EReal := fun o => b (ValueIdx.ix1 o)

end SiluNet

end
-- ==== Proof.LibSiluLanes.lean ====
/-
  Dense layers with the samples along the lanes, read one lane at a time, on the extended reals.

  The activations of n samples are held as an array [K, n]: column c is the vector of sample c. A layer with weights
  w : [M, K] and a bias column b : [M, 1] computes  w times h  plus b broadcast across the n columns. Entry (o, c) of
  the product is the sum over k of w(o,k) * h(k,c): it reads column c of h and no other column. The bias adds b(o,0)
  in every column. So column c of the layer's result is the dense layer of the network (SiluNet.dense) applied to
  column c of h: the columns do not mix. The same holds after SiLU is applied entry by entry. Nothing is assumed
  finite: each statement compares one finite sum of products with itself.

  Generic in the number n of lanes, so that it serves a block of lanes and the whole array alike.
-/
import Idealize.ShloMosaic.Lib.Pipeline.Value
import Idealize.ShloMosaic.Lib.ValueIdx
import proofs.«161170_j70102456205450_2_alg».proof.Proof.LibPlainDot
import proofs.«161170_j70102456205450_2_alg».proof.Proof.LibColumnBroadcast
import proofs.«161170_j70102456205450_2_alg».proof.Proof.LibSiluSample

noncomputable section

namespace SiluNet.Lanes

open Idealize.ShloMosaic Idealize.ShloMosaic.ValueIdx

variable {n : ℕ}

/-- Column c of an [M, n] array: the vector of sample c. -/
def col {M : ℕ} (h : (⟨2, ![M, n]⟩ : Shape).Idx → EReal) (c : Fin n) : Fin M → EReal := fun k => h (ix2 k c)

/-- A bias column [M, 1] as the vector b(o). -/
def bcol {M : ℕ} (b : (⟨2, ![M, 1]⟩ : Shape).Idx → EReal) : Fin M → EReal := fun o => b (ix2 o (0 : Fin 1))

/-- The output layer in lane layout: weights times activations into the zero accumulator, plus the bias column
    (passed through a shape cast to its own shape) broadcast across the lanes. -/
def affine {M K : ℕ} (prec : Option ContractPrecision)
    (w : FVec Ideal ⟨2, ![M, K]⟩ .f32) (h : FVec Ideal ⟨2, ![K, n]⟩ .f32) (b : FVec Ideal ⟨2, ![M, 1]⟩ .f32)
    (hc : (⟨2, ![M, 1]⟩ : Shape).ShapeCasts ⟨2, ![M, 1]⟩) (hb : (⟨2, ![M, 1]⟩ : Shape).Broadcasts ⟨2, ![M, n]⟩) :
    FVec Ideal ⟨2, ![M, n]⟩ .f32 :=
  addf (matmul (DotDims.plain M K n) prec w h (constant ⟨2, ![M, n]⟩ .f32 0x00000000#32))
    (broadcastTo ⟨2, ![M, n]⟩ (shapeCast ⟨2, ![M, 1]⟩ b hc) hb)

/-- A hidden layer in lane layout: the affine map, then z * logistic z on every entry. -/
def layer {M K : ℕ} (prec : Option ContractPrecision)
    (w : FVec Ideal ⟨2, ![M, K]⟩ .f32) (h : FVec Ideal ⟨2, ![K, n]⟩ .f32) (b : FVec Ideal ⟨2, ![M, 1]⟩ .f32)
    (hc : (⟨2, ![M, 1]⟩ : Shape).ShapeCasts ⟨2, ![M, 1]⟩) (hb : (⟨2, ![M, 1]⟩ : Shape).Broadcasts ⟨2, ![M, n]⟩) :
    FVec Ideal ⟨2, ![M, n]⟩ .f32 :=
  mulf (affine prec w h b hc hb) (logistic (affine prec w h b hc hb))

/-- Column c of the affine map is the dense layer of column c. -/
theorem affine_col {M K : ℕ} (prec : Option ContractPrecision)
    (w : FVec Ideal ⟨2, ![M, K]⟩ .f32) (h : FVec Ideal ⟨2, ![K, n]⟩ .f32) (b : FVec Ideal ⟨2, ![M, 1]⟩ .f32)
    (hc : (⟨2, ![M, 1]⟩ : Shape).ShapeCasts ⟨2, ![M, 1]⟩) (hb : (⟨2, ![M, 1]⟩ : Shape).Broadcasts ⟨2, ![M, n]⟩)
    (c : Fin n) :
    col (affine prec w h b hc hb) c = dense (wtab w) (bcol b) (col h c) := by
  funext o
  show FloatOps.matmul (DotDims.plain M K n) prec w h (constant ⟨2, ![M, n]⟩ .f32 0x00000000#32) (ix2 o c)
      + broadcastTo ⟨2, ![M, n]⟩ (shapeCast ⟨2, ![M, 1]⟩ b hc) hb (ix2 o c) = _
  rw [PlainDot.matmul_zero_apply, ColumnBroadcast.apply, shapeCast_self]
  rfl

/-- Column c of a hidden layer is the hidden layer of column c. -/
theorem layer_col {M K : ℕ} (prec : Option ContractPrecision)
    (w : FVec Ideal ⟨2, ![M, K]⟩ .f32) (h : FVec Ideal ⟨2, ![K, n]⟩ .f32) (b : FVec Ideal ⟨2, ![M, 1]⟩ .f32)
    (hc : (⟨2, ![M, 1]⟩ : Shape).ShapeCasts ⟨2, ![M, 1]⟩) (hb : (⟨2, ![M, 1]⟩ : Shape).Broadcasts ⟨2, ![M, n]⟩)
    (c : Fin n) :
    col (layer prec w h b hc hb) c = hidden (wtab w) (bcol b) (col h c) := by
  funext o
  have e := congrFun (affine_col prec w h b hc hb c) o
  show act (affine prec w h b hc hb (ix2 o c)) = act (dense (wtab w) (bcol b) (col h c) o)
  exact congrArg act e

end SiluNet.Lanes

end
-- ==== Proof.Net.lean ====
/-
  A perceptron of eight layers and width 20 with the SiLU activation, one sample at a time, on the extended reals.

  The network applies seven hidden layers (a dense layer, then SiLU on every unit: 1 -> 20, then six times 20 -> 20)
  and a last dense layer 20 -> 1 without activation; the layers themselves are those of LibSiluSample.lean.

  Every sample is treated alone: the network's value at a sample is a function of that sample's one input and of the
  parameters, and of nothing else. That is what lets two programs that lay the samples out differently (down the rows
  of a tall array, or along the lanes of a wide one) be compared one sample at a time: `result` is the array both
  must end holding.
-/
import Idealize.ShloMosaic.PureOps.Ideal
import Idealize.ShloMosaic.Lib.ValueIdx
import proofs.«161170_j70102456205450_2_alg».proof.Proof.LibSiluSample

noncomputable section

namespace SiluNet

open Idealize.ShloMosaic

/-- The network's parameters: the weight table w(o,k) and the bias b(o) of each of the eight layers. -/
structure Params where
  w0 : Fin 20 → Fin 1 → EReal
  b0 : Fin 20 → EReal
  w1 : Fin 20 → Fin 20 → EReal
  b1 : Fin 20 → EReal
  w2 : Fin 20 → Fin 20 → EReal
  b2 : Fin 20 → EReal
  w3 : Fin 20 → Fin 20 → EReal
  b3 : Fin 20 → EReal
  w4 : Fin 20 → Fin 20 → EReal
  b4 : Fin 20 → EReal
  w5 : Fin 20 → Fin 20 → EReal
  b5 : Fin 20 → EReal
  w6 : Fin 20 → Fin 20 → EReal
  b6 : Fin 20 → EReal
  w7 : Fin 1 → Fin 20 → EReal
  b7 : Fin 1 → EReal

/-- The parameters read off the sixteen weight and bias arrays, in the order the programs take them. -/
def argParams (W0 : (⟨2, ![20, 1]⟩ : Shape).Idx → EReal) (B0 : (⟨1, ![20]⟩ : Shape).Idx → EReal)
    (W1 : (⟨2, ![20, 20]⟩ : Shape).Idx → EReal) (B1 : (⟨1, ![20]⟩ : Shape).Idx → EReal)
    (W2 : (⟨2, ![20, 20]⟩ : Shape).Idx → EReal) (B2 : (⟨1, ![20]⟩ : Shape).Idx → EReal)
    (W3 : (⟨2, ![20, 20]⟩ : Shape).Idx → EReal) (B3 : (⟨1, ![20]⟩ : Shape).Idx → EReal)
    (W4 : (⟨2, ![20, 20]⟩ : Shape).Idx → EReal) (B4 : (⟨1, ![20]⟩ : Shape).Idx → EReal)
    (W5 : (⟨2, ![20, 20]⟩ : Shape).Idx → EReal) (B5 : (⟨1, ![20]⟩ : Shape).Idx → EReal)
    (W6 : (⟨2, ![20, 20]⟩ : Shape).Idx → EReal) (B6 : (⟨1, ![20]⟩ : Shape).Idx → EReal)
    (W7 : (⟨2, ![1, 20]⟩ : Shape).Idx → EReal) (B7 : (⟨1, ![1]⟩ : Shape).Idx → EReal) : Params where
  w0 := wtab W0
  b0 := bvec B0
  w1 := wtab W1
  b1 := bvec B1
  w2 := wtab W2
  b2 := bvec B2
  w3 := wtab W3
  b3 := bvec B3
  w4 := wtab W4
  b4 := bvec B4
  w5 := wtab W5
  b5 := bvec B5
  w6 := wtab W6
  b6 := bvec B6
  w7 := wtab W7
  b7 := bvec B7

/-- The network on one sample: seven hidden layers, then the output layer. -/
def net (P : Params) (x : Fin 1 → EReal) : Fin 1 → EReal :=
  dense P.w7 P.b7 (hidden P.w6 P.b6 (hidden P.w5 P.b5 (hidden P.w4 P.b4 (hidden P.w3 P.b3
    (hidden P.w2 P.b2 (hidden P.w1 P.b1 (hidden P.w0 P.b0 x)))))))

/-- The result array [N, 1] as one function of the input column T : [N, 1] and the parameters: row s holds the
    network's value at sample s, whose one input is row s of T. -/
def result (T : (⟨2, ![1048576, 1]⟩ : Shape).Idx → EReal) (P : Params) : (⟨2, ![1048576, 1]⟩ : Shape).Idx → EReal :=
  fun i => net P (fun k => T (ValueIdx.ix2 (⟨(i 0).val, ValueIdx.idx2_lt0 i⟩ : Fin 1048576) k))
    (⟨(i 1).val, ValueIdx.idx2_lt1 i⟩ : Fin 1)

end SiluNet

end
-- ==== Proof.KernelPayload.lean ====
/-
  What the kernel's body stores, one lane at a time.

  The body loads a block x of 131072 samples laid along the lanes, the eight weight arrays and the eight bias
  columns, and stores one value: seven hidden layers (weights times activations plus the bias column, then
  z * logistic z on every entry) followed by the output layer, all in lane layout. Lane c of the stored value is
  therefore the network of SiluNet applied to sample c of the block, with the parameters read off the loaded arrays:
  the lanes do not mix, layer after layer.
-/
import proofs.«161170_j70102456205450_2_alg».proof.Proof.Gen.KernelIdeal.Skeleton
import proofs.«161170_j70102456205450_2_alg».proof.Proof.LibSiluLanes
import proofs.«161170_j70102456205450_2_alg».proof.Proof.Net

noncomputable section

namespace Cert.KernelIdeal.Payload

open Cert.KernelIdeal Cert.KernelIdeal.Gen
open Idealize.ShloMosaic Idealize.ShloMosaic.ValueIdx SiluNet

/-- The network's parameters read off the arrays the body loads: weights [M, K] as tables, bias columns [M, 1] as
    vectors. -/
def params (w0 : FVec Ideal S20x1 .f32) (w1 w2 w3 w4 w5 w6 : FVec Ideal S20x20 .f32) (w7 : FVec Ideal S1x20 .f32)
    (b0 b1 b2 b3 b4 b5 b6 : FVec Ideal S20x1 .f32) (b7 : FVec Ideal S1x1 .f32) : Params where
  w0 := wtab w0
  b0 := Lanes.bcol b0
  w1 := wtab w1
  b1 := Lanes.bcol b1
  w2 := wtab w2
  b2 := Lanes.bcol b2
  w3 := wtab w3
  b3 := Lanes.bcol b3
  w4 := wtab w4
  b4 := Lanes.bcol b4
  w5 := wtab w5
  b5 := Lanes.bcol b5
  w6 := wtab w6
  b6 := Lanes.bcol b6
  w7 := wtab w7
  b7 := Lanes.bcol b7

/-- The stored value is seven hidden layers and the output layer in lane layout. -/
theorem stored_eq (x : FVec Ideal S1x131072 .f32) (w0 : FVec Ideal S20x1 .f32) (w1 w2 w3 w4 w5 w6 : FVec Ideal S20x20 .f32)
    (w7 : FVec Ideal S1x20 .f32) (b0 b1 b2 b3 b4 b5 b6 : FVec Ideal S20x1 .f32) (b7 : FVec Ideal S1x1 .f32) :
    k0_pay1 (F := Ideal) (k0_pay2 (F := Ideal) x w0 b0 w1 b1 w2 b2 w3 b3) w4 b4 w5 b5 w6 b6 w7 b7
      = Lanes.affine (some .fp32) w7
          (Lanes.layer (some .fp32) w6
            (Lanes.layer (some .fp32) w5
              (Lanes.layer (some .fp32) w4
                (Lanes.layer (some .fp32) w3
                  (Lanes.layer (some .fp32) w2
                    (Lanes.layer (some .fp32) w1
                      (Lanes.layer (some .fp32) w0 (shapeCast S1x131072 x shapeCasts_S1x131072_S1x131072) b0
                        shapeCasts_S20x1_S20x1 broadcasts_S20x1_S20x131072)
                      b1 shapeCasts_S20x1_S20x1 broadcasts_S20x1_S20x131072)
                    b2 shapeCasts_S20x1_S20x1 broadcasts_S20x1_S20x131072)
                  b3 shapeCasts_S20x1_S20x1 broadcasts_S20x1_S20x131072)
                b4 shapeCasts_S20x1_S20x1 broadcasts_S20x1_S20x131072)
              b5 shapeCasts_S20x1_S20x1 broadcasts_S20x1_S20x131072)
            b6 shapeCasts_S20x1_S20x1 broadcasts_S20x1_S20x131072)
          b7 shapeCasts_S1x1_S1x1 broadcasts_S1x1_S1x131072 := rfl

/-- Lane c of the stored value is the network applied to sample c of the loaded block. -/
theorem stored_lane (x : FVec Ideal S1x131072 .f32) (w0 : FVec Ideal S20x1 .f32) (w1 w2 w3 w4 w5 w6 : FVec Ideal S20x20 .f32)
    (w7 : FVec Ideal S1x20 .f32) (b0 b1 b2 b3 b4 b5 b6 : FVec Ideal S20x1 .f32) (b7 : FVec Ideal S1x1 .f32)
    (c : Fin 131072) :
    Lanes.col (k0_pay1 (F := Ideal) (k0_pay2 (F := Ideal) x w0 b0 w1 b1 w2 b2 w3 b3) w4 b4 w5 b5 w6 b6 w7 b7) c
      = net (params w0 w1 w2 w3 w4 w5 w6 w7 b0 b1 b2 b3 b4 b5 b6 b7) (Lanes.col x c) := by
  rw [stored_eq, Lanes.affine_col, Lanes.layer_col, Lanes.layer_col, Lanes.layer_col, Lanes.layer_col, Lanes.layer_col,
    Lanes.layer_col, Lanes.layer_col, shapeCast_self]
  rfl

/-- The same, entry by entry: the stored value at (u, l) is output u of the network at the block's sample l. -/
theorem lane_value (x : FVec Ideal S1x131072 .f32) (w0 : FVec Ideal S20x1 .f32) (w1 w2 w3 w4 w5 w6 : FVec Ideal S20x20 .f32)
    (w7 : FVec Ideal S1x20 .f32) (b0 b1 b2 b3 b4 b5 b6 : FVec Ideal S20x1 .f32) (b7 : FVec Ideal S1x1 .f32)
    (u : Fin 1) (l : Fin 131072) :
    k0_pay1 (F := Ideal) (k0_pay2 (F := Ideal) x w0 b0 w1 b1 w2 b2 w3 b3) w4 b4 w5 b5 w6 b6 w7 b7 (ix2 u l)
      = net (params w0 w1 w2 w3 w4 w5 w6 w7 b0 b1 b2 b3 b4 b5 b6 b7) (fun k => x (ix2 k l)) u :=
  congrFun (stored_lane x w0 w1 w2 w3 w4 w5 w6 w7 b0 b1 b2 b3 b4 b5 b6 b7 l) u

end Cert.KernelIdeal.Payload

end
-- ==== Proof.KernelValue.lean ====
/-
  The kernel's result array, from what each grid point writes back.

  The grid has 8 points. Point t stages block t of the flattened input (lanes 131072 t to 131072 t + 131071 of the
  one row) and the whole of every weight and bias array, which do not move with the grid, and writes block t of the
  output row. The body's stored value at lane l of block t is the network applied to sample 131072 t + l (the
  lanes do not mix), so every block is the restriction of ONE function of the whole arrays: entry (0, s) of the
  output row is the network at sample s. The 8 blocks tile the row, hence the row ends holding that function. The
  lines around the region only re-lay arrays out in row-major order: the input column [N, 1] as the row [1, N], each
  bias [M] as a column [M, 1], and the output row [1, N] back as a column [N, 1].
-/
import proofs.«161170_j70102456205450_2_alg».proof.Proof.Gen.KernelIdeal.Frame
import proofs.«161170_j70102456205450_2_alg».proof.Proof.KernelPayload
import Idealize.ShloMosaic.Lib.Pipeline.Value
import Idealize.ShloMosaic.Lib.ValueIdx
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo SiluNet
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The index maps over the grid -/

/-- The input row's window and the output row's window sit at the same block, block t of 8 along the lanes. -/
theorem moving : ∀ t : Fin cfg0.N, win0_0.index t (0 : Fin 2) = 0 ∧ win0_0.index t (1 : Fin 2) = win0_17.index t (1 : Fin 2)
    ∧ win0_17.index t (0 : Fin 2) = 0 ∧ win0_17.index t (1 : Fin 2) ≤ 7 :=
  (by decide +kernel : ∀ t : Fin grid0.N, _)

/-- Every block of the output row is some point's. -/
theorem onto : ∀ q : Fin 8, ∃ t : Fin cfg0.N, win0_17.index t = ![0, q.val] :=
  (by decide +kernel : ∀ q : Fin 8, ∃ t : Fin grid0.N, win0_17.index t = ![0, q.val])

/-- The weight and bias windows stay at block (0, 0) at every point. -/
theorem still : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0) :=
  (by decide +kernel : ∀ t : Fin grid0.N, _)

/-! ## The blocks of the arrays that do not move -/

/-- Window 1 does not move with the grid: its block at every point is its whole array. -/
theorem whole_1 (c : Dev nD) (t : Fin cfg0.N) : (iblk m c 1 t : S20x1.Idx → EReal) = V m c main_arg1 := by
  funext y
  have e := (still t).1
  show V m c main_arg1 (((cfg0.win 1).blk t).view.emb y) = V m c main_arg1 y
  refine congrArg _ (funext fun a => Fin.ext ?_)
  match a with
  | ⟨0, _⟩ => show win0_1.index t (0 : Fin 2) * 20 + 1 * (y 0).val = (y 0).val; rw [e.1]; omega
  | ⟨1, _⟩ => show win0_1.index t (1 : Fin 2) * 1 + 1 * (y 1).val = (y 1).val; rw [e.2]; omega

/-- Window 2 does not move with the grid: its block at every point is its whole array. -/
theorem whole_2 (c : Dev nD) (t : Fin cfg0.N) : (iblk m c 2 t : S20x20.Idx → EReal) = V m c main_arg3 := by
  funext y
  have e := (still t).2.1
  show V m c main_arg3 (((cfg0.win 2).blk t).view.emb y) = V m c main_arg3 y
  refine congrArg _ (funext fun a => Fin.ext ?_)
  match a with
  | ⟨0, _⟩ => show win0_2.index t (0 : Fin 2) * 20 + 1 * (y 0).val = (y 0).val; rw [e.1]; omega
  | ⟨1, _⟩ => show win0_2.index t (1 : Fin 2) * 20 + 1 * (y 1).val = (y 1).val; rw [e.2]; omega

/-- Window 3 does not move with the grid: its block at every point is its whole array. -/
theorem whole_3 (c : Dev nD) (t : Fin cfg0.N) : (iblk m c 3 t : S20x20.Idx → EReal) = V m c main_arg5 := by
  funext y
  have e := (still t).2.2.1
  show V m c main_arg5 (((cfg0.win 3).blk t).view.emb y) = V m c main_arg5 y
  refine congrArg _ (funext fun a => Fin.ext ?_)
  match a with
  | ⟨0, _⟩ => show win0_3.index t (0 : Fin 2) * 20 + 1 * (y 0).val = (y 0).val; rw [e.1]; omega
  | ⟨1, _⟩ => show win0_3.index t (1 : Fin 2) * 20 + 1 * (y 1).val = (y 1).val; rw [e.2]; omega

/-- Window 4 does not move with the grid: its block at every point is its whole array. -/
theorem whole_4 (c : Dev nD) (t : Fin cfg0.N) : (iblk m c 4 t : S20x20.Idx → EReal) = V m c main_arg7 := by
  funext y
  have e := (still t).2.2.2.1
  show V m c main_arg7 (((cfg0.win 4).blk t).view.emb y) = V m c main_arg7 y
  refine congrArg _ (funext fun a => Fin.ext ?_)
  match a with
  | ⟨0, _⟩ => show win0_4.index t (0 : Fin 2) * 20 + 1 * (y 0).val = (y 0).val; rw [e.1]; omega
  | ⟨1, _⟩ => show win0_4.index t (1 : Fin 2) * 20 + 1 * (y 1).val = (y 1).val; rw [e.2]; omega

/-- Window 5 does not move with the grid: its block at every point is its whole array. -/
theorem whole_5 (c : Dev nD) (t : Fin cfg0.N) : (iblk m c 5 t : S20x20.Idx → EReal) = V m c main_arg9 := by
  funext y
  have e := (still t).2.2.2.2.1
  show V m c main_arg9 (((cfg0.win 5).blk t).view.emb y) = V m c main_arg9 y
  refine congrArg _ (funext fun a => Fin.ext ?_)
  match a with
  | ⟨0, _⟩ => show win0_5.index t (0 : Fin 2) * 20 + 1 * (y 0).val = (y 0).val; rw [e.1]; omega
  | ⟨1, _⟩ => show win0_5.index t (1 : Fin 2) * 20 + 1 * (y 1).val = (y 1).val; rw [e.2]; omega

/-- Window 6 does not move with the grid: its block at every point is its whole array. -/
theorem whole_6 (c : Dev nD) (t : Fin cfg0.N) : (iblk m c 6 t : S20x20.Idx → EReal) = V m c main_arg11 := by
  funext y
  have e := (still t).2.2.2.2.2.1
  show V m c main_arg11 (((cfg0.win 6).blk t).view.emb y) = V m c main_arg11 y
  refine congrArg _ (funext fun a => Fin.ext ?_)
  match a with
  | ⟨0, _⟩ => show win0_6.index t (0 : Fin 2) * 20 + 1 * (y 0).val = (y 0).val; rw [e.1]; omega
  | ⟨1, _⟩ => show win0_6.index t (1 : Fin 2) * 20 + 1 * (y 1).val = (y 1).val; rw [e.2]; omega

/-- Window 7 does not move with the grid: its block at every point is its whole array. -/
theorem whole_7 (c : Dev nD) (t : Fin cfg0.N) : (iblk m c 7 t : S20x20.Idx → EReal) = V m c main_arg13 := by
  funext y
  have e := (still t).2.2.2.2.2.2.1
  show V m c main_arg13 (((cfg0.win 7).blk t).view.emb y) = V m c main_arg13 y
  refine congrArg _ (funext fun a => Fin.ext ?_)
  match a with
  | ⟨0, _⟩ => show win0_7.index t (0 : Fin 2) * 20 + 1 * (y 0).val = (y 0).val; rw [e.1]; omega
  | ⟨1, _⟩ => show win0_7.index t (1 : Fin 2) * 20 + 1 * (y 1).val = (y 1).val; rw [e.2]; omega

/-- Window 8 does not move with the grid: its block at every point is its whole array. -/
theorem whole_8 (c : Dev nD) (t : Fin cfg0.N) : (iblk m c 8 t : S1x20.Idx → EReal) = V m c main_arg15 := by
  funext y
  have e := (still t).2.2.2.2.2.2.2.1
  show V m c main_arg15 (((cfg0.win 8).blk t).view.emb y) = V m c main_arg15 y
  refine congrArg _ (funext fun a => Fin.ext ?_)
  match a with
  | ⟨0, _⟩ => show win0_8.index t (0 : Fin 2) * 1 + 1 * (y 0).val = (y 0).val; rw [e.1]; omega
  | ⟨1, _⟩ => show win0_8.index t (1 : Fin 2) * 20 + 1 * (y 1).val = (y 1).val; rw [e.2]; omega

/-- Window 9 does not move with the grid: its block at every point is its whole array. -/
theorem whole_9 (c : Dev nD) (t : Fin cfg0.N) : (iblk m c 9 t : S20x1.Idx → EReal) = V m c main_v0 := by
  funext y
  have e := (still t).2.2.2.2.2.2.2.2.1
  show V m c main_v0 (((cfg0.win 9).blk t).view.emb y) = V m c main_v0 y
  refine congrArg _ (funext fun a => Fin.ext ?_)
  match a with
  | ⟨0, _⟩ => show win0_9.index t (0 : Fin 2) * 20 + 1 * (y 0).val = (y 0).val; rw [e.1]; omega
  | ⟨1, _⟩ => show win0_9.index t (1 : Fin 2) * 1 + 1 * (y 1).val = (y 1).val; rw [e.2]; omega

/-- Window 10 does not move with the grid: its block at every point is its whole array. -/
theorem whole_10 (c : Dev nD) (t : Fin cfg0.N) : (iblk m c 10 t : S20x1.Idx → EReal) = V m c main_v1 := by
  funext y
  have e := (still t).2.2.2.2.2.2.2.2.2.1
  show V m c main_v1 (((cfg0.win 10).blk t).view.emb y) = V m c main_v1 y
  refine congrArg _ (funext fun a => Fin.ext ?_)
  match a with
  | ⟨0, _⟩ => show win0_10.index t (0 : Fin 2) * 20 + 1 * (y 0).val = (y 0).val; rw [e.1]; omega
  | ⟨1, _⟩ => show win0_10.index t (1 : Fin 2) * 1 + 1 * (y 1).val = (y 1).val; rw [e.2]; omega

/-- Window 11 does not move with the grid: its block at every point is its whole array. -/
theorem whole_11 (c : Dev nD) (t : Fin cfg0.N) : (iblk m c 11 t : S20x1.Idx → EReal) = V m c main_v2 := by
  funext y
  have e := (still t).2.2.2.2.2.2.2.2.2.2.1
  show V m c main_v2 (((cfg0.win 11).blk t).view.emb y) = V m c main_v2 y
  refine congrArg _ (funext fun a => Fin.ext ?_)
  match a with
  | ⟨0, _⟩ => show win0_11.index t (0 : Fin 2) * 20 + 1 * (y 0).val = (y 0).val; rw [e.1]; omega
  | ⟨1, _⟩ => show win0_11.index t (1 : Fin 2) * 1 + 1 * (y 1).val = (y 1).val; rw [e.2]; omega

/-- Window 12 does not move with the grid: its block at every point is its whole array. -/
theorem whole_12 (c : Dev nD) (t : Fin cfg0.N) : (iblk m c 12 t : S20x1.Idx → EReal) = V m c main_v3 := by
  funext y
  have e := (still t).2.2.2.2.2.2.2.2.2.2.2.1
  show V m c main_v3 (((cfg0.win 12).blk t).view.emb y) = V m c main_v3 y
  refine congrArg _ (funext fun a => Fin.ext ?_)
  match a with
  | ⟨0, _⟩ => show win0_12.index t (0 : Fin 2) * 20 + 1 * (y 0).val = (y 0).val; rw [e.1]; omega
  | ⟨1, _⟩ => show win0_12.index t (1 : Fin 2) * 1 + 1 * (y 1).val = (y 1).val; rw [e.2]; omega

/-- Window 13 does not move with the grid: its block at every point is its whole array. -/
theorem whole_13 (c : Dev nD) (t : Fin cfg0.N) : (iblk m c 13 t : S20x1.Idx → EReal) = V m c main_v4 := by
  funext y
  have e := (still t).2.2.2.2.2.2.2.2.2.2.2.2.1
  show V m c main_v4 (((cfg0.win 13).blk t).view.emb y) = V m c main_v4 y
  refine congrArg _ (funext fun a => Fin.ext ?_)
  match a with
  | ⟨0, _⟩ => show win0_13.index t (0 : Fin 2) * 20 + 1 * (y 0).val = (y 0).val; rw [e.1]; omega
  | ⟨1, _⟩ => show win0_13.index t (1 : Fin 2) * 1 + 1 * (y 1).val = (y 1).val; rw [e.2]; omega

/-- Window 14 does not move with the grid: its block at every point is its whole array. -/
theorem whole_14 (c : Dev nD) (t : Fin cfg0.N) : (iblk m c 14 t : S20x1.Idx → EReal) = V m c main_v5 := by
  funext y
  have e := (still t).2.2.2.2.2.2.2.2.2.2.2.2.2.1
  show V m c main_v5 (((cfg0.win 14).blk t).view.emb y) = V m c main_v5 y
  refine congrArg _ (funext fun a => Fin.ext ?_)
  match a with
  | ⟨0, _⟩ => show win0_14.index t (0 : Fin 2) * 20 + 1 * (y 0).val = (y 0).val; rw [e.1]; omega
  | ⟨1, _⟩ => show win0_14.index t (1 : Fin 2) * 1 + 1 * (y 1).val = (y 1).val; rw [e.2]; omega

/-- Window 15 does not move with the grid: its block at every point is its whole array. -/
theorem whole_15 (c : Dev nD) (t : Fin cfg0.N) : (iblk m c 15 t : S20x1.Idx → EReal) = V m c main_v6 := by
  funext y
  have e := (still t).2.2.2.2.2.2.2.2.2.2.2.2.2.2.1
  show V m c main_v6 (((cfg0.win 15).blk t).view.emb y) = V m c main_v6 y
  refine congrArg _ (funext fun a => Fin.ext ?_)
  match a with
  | ⟨0, _⟩ => show win0_15.index t (0 : Fin 2) * 20 + 1 * (y 0).val = (y 0).val; rw [e.1]; omega
  | ⟨1, _⟩ => show win0_15.index t (1 : Fin 2) * 1 + 1 * (y 1).val = (y 1).val; rw [e.2]; omega

/-- Window 16 does not move with the grid: its block at every point is its whole array. -/
theorem whole_16 (c : Dev nD) (t : Fin cfg0.N) : (iblk m c 16 t : S1x1.Idx → EReal) = V m c main_v7 := by
  funext y
  have e := (still t).2.2.2.2.2.2.2.2.2.2.2.2.2.2.2
  show V m c main_v7 (((cfg0.win 16).blk t).view.emb y) = V m c main_v7 y
  refine congrArg _ (funext fun a => Fin.ext ?_)
  match a with
  | ⟨0, _⟩ => show win0_16.index t (0 : Fin 2) * 1 + 1 * (y 0).val = (y 0).val; rw [e.1]; omega
  | ⟨1, _⟩ => show win0_16.index t (1 : Fin 2) * 1 + 1 * (y 1).val = (y 1).val; rw [e.2]; omega

/-! ## The arrays the region finds, re-laid by the lines before it -/

/-- A vector [M] re-laid as a column [M, 1]: entry (o, 0) is entry o. -/
theorem column_apply {M : ℕ} (b : (⟨1, ![M]⟩ : Shape).Idx → EReal) (h : (⟨1, ![M]⟩ : Shape).ShapeCasts ⟨2, ![M, 1]⟩) (o : Fin M) :
    shapeCast ⟨2, ![M, 1]⟩ b h (ix2 o (0 : Fin 1)) = bvec b o :=
  shapeCast_apply b h (ix2 o (0 : Fin 1)) (ix1 o) (by
    rw [Shape.rowMajor_val_two, Shape.rowMajor_val_one]
    show o.val = o.val * 1 + 0
    omega)

/-- A column [N, 1] re-laid as a row [1, N]: entry (k, s) is entry (s, 0). -/
theorem row_apply (x : S1048576x1.Idx → EReal) (h : S1048576x1.ShapeCasts S1x1048576) (k : Fin 1) (s : Fin 1048576) :
    shapeCast S1x1048576 x h (ix2 k s) = x (ix2 s (0 : Fin 1)) :=
  shapeCast_apply x h (ix2 k s) (ix2 s (0 : Fin 1)) (by
    rw [Shape.rowMajor_val_two, Shape.rowMajor_val_two]
    show s.val * 1 + 0 = k.val * 1048576 + s.val
    have := k.isLt
    omega)

/-- A row [1, N] re-laid as a column [N, 1]: entry (s, o) is entry (0, s). -/
theorem unrow_apply (x : S1x1048576.Idx → EReal) (h : S1x1048576.ShapeCasts S1048576x1) (s : Fin 1048576) (o : Fin 1) :
    shapeCast S1048576x1 x h (ix2 s o) = x (ix2 (0 : Fin 1) s) :=
  shapeCast_apply x h (ix2 s o) (ix2 (0 : Fin 1) s) (by
    rw [Shape.rowMajor_val_two, Shape.rowMajor_val_two]
    show 0 * 1048576 + s.val = s.val * 1 + o.val
    have := o.isLt
    omega)

/-- The input as the region finds it is the argument column re-laid as a row. -/
theorem V_row (c : Dev nD) : (V m c main_v8 : S1x1048576.Idx → EReal)
    = shapeCast S1x1048576 (m ((c.tc : Thread nD τ).loc main_arg0)) shapeCasts_S1048576x1_S1x1048576 := by
  show StableHlo.after hostOps0 (fun b => m (c, b)) (Proc.devRef .tc main_v8) = _
  after_results
  rfl

/-- The bias column of layer 0, as the region finds it, is the bias vector of argument 2. -/
theorem col_main_v0 (c : Dev nD) : Lanes.bcol (V m c main_v0 : S20x1.Idx → EReal) = bvec (m ((c.tc : Thread nD τ).loc main_arg2)) := by
  have e : (V m c main_v0 : S20x1.Idx → EReal) = shapeCast S20x1 (m ((c.tc : Thread nD τ).loc main_arg2)) shapeCasts_S20_S20x1 := by
    show StableHlo.after hostOps0 (fun b => m (c, b)) (Proc.devRef .tc main_v0) = _
    after_results
    rfl
  funext o
  show (V m c main_v0 : S20x1.Idx → EReal) (ix2 o (0 : Fin 1)) = _
  rw [e]
  exact column_apply _ _ o

/-- The bias column of layer 1, as the region finds it, is the bias vector of argument 4. -/
theorem col_main_v1 (c : Dev nD) : Lanes.bcol (V m c main_v1 : S20x1.Idx → EReal) = bvec (m ((c.tc : Thread nD τ).loc main_arg4)) := by
  have e : (V m c main_v1 : S20x1.Idx → EReal) = shapeCast S20x1 (m ((c.tc : Thread nD τ).loc main_arg4)) shapeCasts_S20_S20x1 := by
    show StableHlo.after hostOps0 (fun b => m (c, b)) (Proc.devRef .tc main_v1) = _
    after_results
    rfl
  funext o
  show (V m c main_v1 : S20x1.Idx → EReal) (ix2 o (0 : Fin 1)) = _
  rw [e]
  exact column_apply _ _ o

/-- The bias column of layer 2, as the region finds it, is the bias vector of argument 6. -/
theorem col_main_v2 (c : Dev nD) : Lanes.bcol (V m c main_v2 : S20x1.Idx → EReal) = bvec (m ((c.tc : Thread nD τ).loc main_arg6)) := by
  have e : (V m c main_v2 : S20x1.Idx → EReal) = shapeCast S20x1 (m ((c.tc : Thread nD τ).loc main_arg6)) shapeCasts_S20_S20x1 := by
    show StableHlo.after hostOps0 (fun b => m (c, b)) (Proc.devRef .tc main_v2) = _
    after_results
    rfl
  funext o
  show (V m c main_v2 : S20x1.Idx → EReal) (ix2 o (0 : Fin 1)) = _
  rw [e]
  exact column_apply _ _ o

/-- The bias column of layer 3, as the region finds it, is the bias vector of argument 8. -/
theorem col_main_v3 (c : Dev nD) : Lanes.bcol (V m c main_v3 : S20x1.Idx → EReal) = bvec (m ((c.tc : Thread nD τ).loc main_arg8)) := by
  have e : (V m c main_v3 : S20x1.Idx → EReal) = shapeCast S20x1 (m ((c.tc : Thread nD τ).loc main_arg8)) shapeCasts_S20_S20x1 := by
    show StableHlo.after hostOps0 (fun b => m (c, b)) (Proc.devRef .tc main_v3) = _
    after_results
    rfl
  funext o
  show (V m c main_v3 : S20x1.Idx → EReal) (ix2 o (0 : Fin 1)) = _
  rw [e]
  exact column_apply _ _ o

/-- The bias column of layer 4, as the region finds it, is the bias vector of argument 10. -/
theorem col_main_v4 (c : Dev nD) : Lanes.bcol (V m c main_v4 : S20x1.Idx → EReal) = bvec (m ((c.tc : Thread nD τ).loc main_arg10)) := by
  have e : (V m c main_v4 : S20x1.Idx → EReal) = shapeCast S20x1 (m ((c.tc : Thread nD τ).loc main_arg10)) shapeCasts_S20_S20x1 := by
    show StableHlo.after hostOps0 (fun b => m (c, b)) (Proc.devRef .tc main_v4) = _
    after_results
    rfl
  funext o
  show (V m c main_v4 : S20x1.Idx → EReal) (ix2 o (0 : Fin 1)) = _
  rw [e]
  exact column_apply _ _ o

/-- The bias column of layer 5, as the region finds it, is the bias vector of argument 12. -/
theorem col_main_v5 (c : Dev nD) : Lanes.bcol (V m c main_v5 : S20x1.Idx → EReal) = bvec (m ((c.tc : Thread nD τ).loc main_arg12)) := by
  have e : (V m c main_v5 : S20x1.Idx → EReal) = shapeCast S20x1 (m ((c.tc : Thread nD τ).loc main_arg12)) shapeCasts_S20_S20x1 := by
    show StableHlo.after hostOps0 (fun b => m (c, b)) (Proc.devRef .tc main_v5) = _
    after_results
    rfl
  funext o
  show (V m c main_v5 : S20x1.Idx → EReal) (ix2 o (0 : Fin 1)) = _
  rw [e]
  exact column_apply _ _ o

/-- The bias column of layer 6, as the region finds it, is the bias vector of argument 14. -/
theorem col_main_v6 (c : Dev nD) : Lanes.bcol (V m c main_v6 : S20x1.Idx → EReal) = bvec (m ((c.tc : Thread nD τ).loc main_arg14)) := by
  have e : (V m c main_v6 : S20x1.Idx → EReal) = shapeCast S20x1 (m ((c.tc : Thread nD τ).loc main_arg14)) shapeCasts_S20_S20x1 := by
    show StableHlo.after hostOps0 (fun b => m (c, b)) (Proc.devRef .tc main_v6) = _
    after_results
    rfl
  funext o
  show (V m c main_v6 : S20x1.Idx → EReal) (ix2 o (0 : Fin 1)) = _
  rw [e]
  exact column_apply _ _ o

/-- The output layer's bias, as the region finds it: the one-entry vector as a one-entry column. -/
theorem col_main_v7 (c : Dev nD) : Lanes.bcol (V m c main_v7 : S1x1.Idx → EReal) = bvec (m ((c.tc : Thread nD τ).loc main_arg16)) := by
  have e : (V m c main_v7 : S1x1.Idx → EReal) = shapeCast S1x1 (m ((c.tc : Thread nD τ).loc main_arg16)) shapeCasts_S1_S1x1 := by
    show StableHlo.after hostOps0 (fun b => m (c, b)) (Proc.devRef .tc main_v7) = _
    after_results
    rfl
  funext o
  show (V m c main_v7 : S1x1.Idx → EReal) (ix2 o (0 : Fin 1)) = _
  rw [e]
  exact column_apply _ _ o

/-- The network's parameters as the region finds them. -/
def regionParams (c : Dev nD) : Params :=
  Payload.params (V m c main_arg1) (V m c main_arg3) (V m c main_arg5) (V m c main_arg7) (V m c main_arg9) (V m c main_arg11)
    (V m c main_arg13) (V m c main_arg15) (V m c main_v0) (V m c main_v1) (V m c main_v2) (V m c main_v3) (V m c main_v4)
    (V m c main_v5) (V m c main_v6) (V m c main_v7)

/-- They are the parameters read off the argument arrays. -/
theorem regionParams_eq (c : Dev nD) : regionParams m c = argParams (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold regionParams Payload.params argParams
  rw [col_main_v0, col_main_v1, col_main_v2, col_main_v3, col_main_v4, col_main_v5, col_main_v6, col_main_v7,
    V_main_arg1, V_main_arg3, V_main_arg5, V_main_arg7, V_main_arg9, V_main_arg11, V_main_arg13, V_main_arg15]

/-! ## What a point writes back -/

/-- The output row as ONE function of the input row T and the parameters: entry (u, s) is the network at sample s. -/
def rowOut (T : S1x1048576.Idx → EReal) (P : Params) : S1x1048576.Idx → EReal :=
  fun i => net P (fun k => T (ix2 k (⟨(i 1).val, idx2_lt1 i⟩ : Fin 1048576))) (⟨(i 0).val, idx2_lt0 i⟩ : Fin 1)

/-- Lane l of the input block at point t is sample 131072 * (block index) + l of the input row. -/
theorem moving_block (c : Dev nD) (t : Fin cfg0.N) (k : Fin 1) (l : Fin 131072)
    (h : win0_17.index t (1 : Fin 2) * 131072 + l.val < 1048576) :
    (iblk m c 0 t : S1x131072.Idx → EReal) (ix2 k l)
      = V m c main_v8 (ix2 k (⟨win0_17.index t (1 : Fin 2) * 131072 + l.val, h⟩ : Fin 1048576)) := by
  obtain ⟨e0, e1, -, -⟩ := moving t
  show V m c main_v8 (((cfg0.win 0).blk t).view.emb (ix2 k l)) = _
  refine congrArg _ (funext fun a => Fin.ext ?_)
  match a with
  | ⟨0, _⟩ => show win0_0.index t (0 : Fin 2) * 1 + 1 * k.val = k.val; rw [e0]; omega
  | ⟨1, _⟩ =>
    show win0_0.index t (1 : Fin 2) * 131072 + 1 * l.val = win0_17.index t (1 : Fin 2) * 131072 + l.val
    rw [e1]; omega

/-- WHAT POINT t WRITES BACK is block t of the output row's function of the arrays the region finds. -/
theorem flushed_eq (c : Dev nD) (t : Fin cfg0.N) :
    (dats m 0 c).flushed 17 t = ((cfg0.win 17).blk t).view.read (Elt Ideal) (rowOut (V m c main_v8) (regionParams m c)) := by
  show (cfg0.win 17).cut (grid0.coords t) ((dats m 0 c).after 17 t) = _
  rw [after0_17]
  unfold out0_17
  rw [View.canon_unit_zero hz]
  simp only [View.ld_unit_zero (S := S1x131072) hz, View.ld_unit_zero (S := S20x1) hz, View.ld_unit_zero (S := S20x20) hz,
    View.ld_unit_zero (S := S1x20) hz, View.ld_unit_zero (S := S1x1) hz]
  obtain ⟨e0, e1, e2, e3⟩ := moving t
  funext j
  obtain ⟨u, l, rfl⟩ : ∃ (u : Fin 1) (l : Fin 131072), j = ix2 u l := ⟨j 0, j 1, eq_ix2 j⟩
  have hl : win0_17.index t (1 : Fin 2) * 131072 + l.val < 1048576 := by have := l.isLt; omega
  refine (Payload.lane_value (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (iblk m c 15 t) (iblk m c 16 t) u l).trans ?_
  rw [whole_1, whole_2, whole_3, whole_4, whole_5, whole_6, whole_7, whole_8, whole_9, whole_10, whole_11, whole_12, whole_13,
    whole_14, whole_15, whole_16]
  have hx : (fun k : Fin 1 => (iblk m c 0 t : S1x131072.Idx → EReal) (ix2 k l))
      = fun k : Fin 1 => V m c main_v8 (ix2 k (⟨win0_17.index t (1 : Fin 2) * 131072 + l.val, hl⟩ : Fin 1048576)) :=
    funext fun k => moving_block m c t k l hl
  rw [hx]
  show net (regionParams m c) _ u = net (regionParams m c) _ _
  have hu : (⟨((((cfg0.win 17).blk t).view.emb (ix2 u l)) 0).val, idx2_lt0 _⟩ : Fin 1) = u := Subsingleton.elim _ _
  have hs : (⟨((((cfg0.win 17).blk t).view.emb (ix2 u l)) 1).val, idx2_lt1 _⟩ : Fin 1048576)
      = ⟨win0_17.index t (1 : Fin 2) * 131072 + l.val, hl⟩ := Fin.ext (by
    show win0_17.index t (1 : Fin 2) * 131072 + 1 * l.val = win0_17.index t (1 : Fin 2) * 131072 + l.val
    omega)
  show _ = net (regionParams m c) (fun k => V m c main_v8 (ix2 k (⟨((((cfg0.win 17).blk t).view.emb (ix2 u l)) 1).val, idx2_lt1 _⟩ : Fin 1048576)))
    (⟨((((cfg0.win 17).blk t).view.emb (ix2 u l)) 0).val, idx2_lt0 _⟩ : Fin 1)
  rw [hu, hs]

/-! ## The blocks tile the row -/

/-- An index of the output row is in point t's block iff each coordinate is in the block's range on its axis. -/
theorem mem_blk (t : Fin cfg0.N) (i : S1x1048576.Idx) :
    i ∈ ((cfg0.win 17).blk t).view.set ↔ ∀ a : Fin 2, win0_17.index t a * S1x131072.size a ≤ (i a).val
      ∧ (i a).val < win0_17.index t a * S1x131072.size a + S1x131072.size a := by
  show i ∈ ((View.whole main_v9).slice (win0_17.rect t)).set ↔ _
  rw [View.set_slice_whole, Rect.mem_set_unit]
  exact Iff.rfl

/-- Every index of the output row is in some point's block: sample s is in block s / 131072. -/
theorem cover (i : S1x1048576.Idx) : ∃ t : Fin cfg0.N, (cfg0.win 17).flush t = true ∧ i ∈ ((cfg0.win 17).blk t).view.set := by
  have hi0 : (i 0).val < 1 := (i 0).isLt
  have hi1 : (i 1).val < 1048576 := (i 1).isLt
  obtain ⟨t, ht⟩ := onto ⟨(i 1).val / 131072, by omega⟩
  have q0 : win0_17.index t (0 : Fin 2) = 0 := congrFun ht 0
  have q1 : win0_17.index t (1 : Fin 2) = (i 1).val / 131072 := congrFun ht 1
  refine ⟨t, flush0_17 t, ?_⟩
  rw [mem_blk]
  intro a
  match a with
  | ⟨0, _⟩ => show win0_17.index t (0 : Fin 2) * 1 ≤ (i 0).val ∧ (i 0).val < win0_17.index t (0 : Fin 2) * 1 + 1; omega
  | ⟨1, _⟩ =>
    show win0_17.index t (1 : Fin 2) * 131072 ≤ (i 1).val ∧ (i 1).val < win0_17.index t (1 : Fin 2) * 131072 + 131072
    omega

/-- THE OUTPUT ROW after the region: the one function of the arrays the region finds. -/
theorem final (c : Dev nD) : (dats m 0 c).arrAt 17 cfg0.N = rowOut (V m c main_v8) (regionParams m c) :=
  (dats m 0 c).arrAt_eq_of_cover 17 _ (fun t _ => flushed_eq m c t) cover

/-! ## The line after the region, and the run -/

/-- The program's result: the output row re-laid as a column is the result array of the specification. -/
theorem value (c : Dev nD) :
    Pipeline.afterTail₀ cfgs (dats m) 0 (V0 m) [hostOps1] c main_v10
      = result (m ((c.tc : Thread nD τ).loc main_arg0)) (argParams (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) := by
  unfold Pipeline.afterTail₀
  show StableHlo.after hostOps1 _ (Proc.devRef .tc main_v10) = _
  after_results
  have hw : (Pipeline.withArrays (cfgs 0).spec c (V0 m c) (fun w => (dats m 0 c).arrAt w (cfgs 0).N)
      (Proc.devRef .tc main_v9) : S1x1048576.Idx → EReal) = rowOut (V m c main_v8) (regionParams m c) :=
    (Pipeline.withArrays_arr spec0 launch0.win.arr_inj c _ _ 17).trans (final m c)
  funext i
  obtain ⟨s, o, rfl⟩ : ∃ (s : Fin 1048576) (o : Fin 1), i = ix2 s o := ⟨i 0, i 1, eq_ix2 i⟩
  show shapeCast S1048576x1 (Pipeline.withArrays (cfgs 0).spec c (V0 m c) (fun w => (dats m 0 c).arrAt w (cfgs 0).N)
      (Proc.devRef .tc main_v9) : S1x1048576.Idx → EReal) shapeCasts_S1x1048576_S1048576x1 (ix2 s o) = _
  rw [unrow_apply, hw, regionParams_eq, V_row]
  have hk : (fun k : Fin 1 => shapeCast S1x1048576 (m ((c.tc : Thread nD τ).loc main_arg0)) shapeCasts_S1048576x1_S1x1048576 (ix2 k s))
      = fun k : Fin 1 => m ((c.tc : Thread nD τ).loc main_arg0) (ix2 s k) :=
    funext fun k => (row_apply _ _ k s).trans
      (congrArg (fun k' : Fin 1 => m ((c.tc : Thread nD τ).loc main_arg0) (ix2 s k')) (Subsingleton.elim (0 : Fin 1) k))
  show net _ (fun k : Fin 1 => shapeCast S1x1048576 (m ((c.tc : Thread nD τ).loc main_arg0)) shapeCasts_S1048576x1_S1x1048576 (ix2 k s))
      (0 : Fin 1) = net _ (fun k : Fin 1 => m ((c.tc : Thread nD τ).loc main_arg0) (ix2 s k)) o
  rw [hk, Subsingleton.elim o (0 : Fin 1)]

/-- THE RUN, read: every weakly fair execution terminates with the result array holding the specification's function of
    the argument arrays, and the argument arrays as launched. The first conjunct is the frame run's post at the
    result, read through the line after the region; the others are the frame's. -/
theorem run : θ_run defs (onTc (τ := τ) (main (F := Ideal))) ⟨m, fun _ => 0, ρ⟩ fun r => ∀ c : Dev nD,
      r.2.mem ((c.tc : Thread nD τ).loc main_v10)
        = result (m ((c.tc : Thread nD τ).loc main_arg0)) (argParams (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c =>
    ⟨((h c).2 main_v10 (Pipeline.mem_restRefs_of main_v10 (by decide) (by decide))).trans (value m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 3).trans (((dats m 0 c).arrAt_in 3 rfl _).trans ((A_eq m c 3).trans (V_main_arg5 m c))),
      ((h c).2 main_arg6 (Pipeline.mem_restRefs_of main_arg6 (by decide) (by decide))).trans (W_main_arg6 m (dats m) c),
      ((h c).1 4).trans (((dats m 0 c).arrAt_in 4 rfl _).trans ((A_eq m c 4).trans (V_main_arg7 m c))),
      ((h c).2 main_arg8 (Pipeline.mem_restRefs_of main_arg8 (by decide) (by decide))).trans (W_main_arg8 m (dats m) c),
      ((h c).1 5).trans (((dats m 0 c).arrAt_in 5 rfl _).trans ((A_eq m c 5).trans (V_main_arg9 m c))),
      ((h c).2 main_arg10 (Pipeline.mem_restRefs_of main_arg10 (by decide) (by decide))).trans (W_main_arg10 m (dats m) c),
      ((h c).1 6).trans (((dats m 0 c).arrAt_in 6 rfl _).trans ((A_eq m c 6).trans (V_main_arg11 m c))),
      ((h c).2 main_arg12 (Pipeline.mem_restRefs_of main_arg12 (by decide) (by decide))).trans (W_main_arg12 m (dats m) c),
      ((h c).1 7).trans (((dats m 0 c).arrAt_in 7 rfl _).trans ((A_eq m c 7).trans (V_main_arg13 m c))),
      ((h c).2 main_arg14 (Pipeline.mem_restRefs_of main_arg14 (by decide) (by decide))).trans (W_main_arg14 m (dats m) c),
      ((h c).1 8).trans (((dats m 0 c).arrAt_in 8 rfl _).trans ((A_eq m c 8).trans (V_main_arg15 m c))),
      ((h c).2 main_arg16 (Pipeline.mem_restRefs_of main_arg16 (by decide) (by decide))).trans (W_main_arg16 m (dats m) c)⟩)
    (run_main m ρ)

end Cert.KernelIdeal.Whole

end
-- ==== Proof.LibLstmCell.lean ====
/-
  Two facts about recurrent cells that keep their state in a table filled row by row.

  (1) The arithmetic of one LSTM cell on the extended reals, in two spellings. The pre-activation of a gate is a
  sum of three terms: the input's projection, the recurrent projection and the bias. One program adds the
  two projections first and the bias last; another adds the bias to the input's projection first and the recurrent
  projection last. Addition on the extended reals is commutative and associative everywhere (the infinities
  included), so the two sums are equal with no finiteness assumption. The logistic function is by definition
  1 / (1 + e^(-x)); a program that spells it out with a negation, an exponential, a sum with the constant one
  and a quotient computes the same extended real, the constant being the float pattern of 1.0.

  (2) A table with rows 0 .. n filled in order: row 0 is set to a start value z, and step i (for i < n) writes
  row i + 1 with f i applied to the row par i read from the table as it then stands. When every par i ≤ i, the
  row read at step i was written before step i, so the rows do not depend on what the table held at the start,
  and the filled table is the recursion S 0 = z, S (i + 1) = f i (S (par i)). This is the shape of a tree
  recurrence (a child's state computed from its parent's) carried in a scratch table across sequential steps.
-/
import Idealize.ShloMosaic.PureOps.Ideal

noncomputable section

namespace LibLstmCell

open Idealize.ShloMosaic

/-! ## One cell's arithmetic -/

/-- The float pattern of 1.0 denotes the extended real 1. -/
theorem ofBits_one_f32 : Ideal.ofBits .f32 0x3F800000#32 = 1 := by
  simp [Ideal.ofBits, Ideal.ieee, -EReal.coe_mul]; norm_num

/-- A gate's pre-activation: projections first and bias last equals bias on the input's projection first and the
    recurrent projection last. No finiteness is needed. -/
theorem preact_regroup (xw hw b : EReal) : xw + hw + b = xw + b + hw := add_right_comm xw hw b

/-- The logistic spelled with a negation, an exponential, a sum with one and a quotient is the logistic. -/
theorem logistic_spelled (x : EReal) : Ideal.div 1 (1 + Ideal.exp (-x)) = Ideal.logistic x := rfl

/-- The new cell state from the input, forget and candidate pre-activations and the parent's cell state. -/
def cellC (i f g c : EReal) : EReal := Ideal.logistic f * c + Ideal.logistic i * Ideal.tanh g

/-- The new hidden state from the output pre-activation and the new cell state. -/
def cellH (o c' : EReal) : EReal := Ideal.logistic o * Ideal.tanh c'

/-- The cell state with every logistic spelled out is cellC. -/
theorem cellC_spelled (i f g c : EReal) :
    Ideal.div 1 (1 + Ideal.exp (-f)) * c + Ideal.div 1 (1 + Ideal.exp (-i)) * Ideal.tanh g = cellC i f g c := rfl

/-- The hidden state with the logistic spelled out is cellH. -/
theorem cellH_spelled (o c' : EReal) : Ideal.div 1 (1 + Ideal.exp (-o)) * Ideal.tanh c' = cellH o c' := rfl

/-! ## A table filled row by row from earlier rows -/

section Fill

variable {α : Type} (n : ℕ) (z : α) (par : Fin n → Fin (n + 1)) (f : Fin n → α → α)

/-- The table after the start value and the first k steps, from a table g₀ of arbitrary contents. Steps past n
    do nothing. -/
def fill (g₀ : Fin (n + 1) → α) : ℕ → Fin (n + 1) → α
  | 0 => Function.update g₀ 0 z
  | k + 1 =>
    if h : k < n then
      Function.update (fill g₀ k) ⟨k + 1, Nat.succ_lt_succ h⟩ (f ⟨k, h⟩ (fill g₀ k (par ⟨k, h⟩)))
    else fill g₀ k

/-- Row 0 holds the start value after any number of steps. -/
theorem fill_zero (g₀ : Fin (n + 1) → α) (k : ℕ) : fill n z par f g₀ k 0 = z := by
  induction k with
  | zero => simp [fill]
  | succ k ih =>
    rw [fill]
    split
    · rw [Function.update_of_ne]
      · exact ih
      · intro h; exact absurd (congrArg Fin.val h) (by simp)
    · exact ih

/-- A row already written is not touched by later steps: for j ≤ k the row j after k + 1 steps is the row after k. -/
theorem fill_succ_of_le (g₀ : Fin (n + 1) → α) (k : ℕ) (j : Fin (n + 1)) (hj : j.val ≤ k) :
    fill n z par f g₀ (k + 1) j = fill n z par f g₀ k j := by
  rw [fill]
  split
  · rw [Function.update_of_ne]
    intro h; have := congrArg Fin.val h; simp at this; omega
  · rfl

/-- When each step reads a row written before it, the rows written so far do not depend on the start table. -/
theorem fill_indep (hpar : ∀ i : Fin n, (par i).val ≤ i.val) (g₀ g₁ : Fin (n + 1) → α) (k : ℕ) (j : Fin (n + 1))
    (hj : j.val ≤ k) : fill n z par f g₀ k j = fill n z par f g₁ k j := by
  induction k generalizing j with
  | zero =>
    have : j = 0 := Fin.ext (by simpa using hj)
    subst this; simp [fill]
  | succ k ih =>
    by_cases hjk : j.val ≤ k
    · rw [fill_succ_of_le n z par f g₀ k j hjk, fill_succ_of_le n z par f g₁ k j hjk]; exact ih j hjk
    · have hjk' : j.val = k + 1 := by omega
      rw [fill, fill]
      by_cases h : k < n
      · rw [dif_pos h, dif_pos h]
        have hj' : j = ⟨k + 1, Nat.succ_lt_succ h⟩ := Fin.ext hjk'
        subst hj'
        rw [Function.update_self, Function.update_self, ih (par ⟨k, h⟩) (hpar ⟨k, h⟩)]
      · exact absurd j.isLt (by omega)

/-- Rows written by step k are not touched by any later step. -/
theorem fill_stable (g₀ : Fin (n + 1) → α) (k k' : ℕ) (hk : k ≤ k') (j : Fin (n + 1)) (hj : j.val ≤ k) :
    fill n z par f g₀ k' j = fill n z par f g₀ k j := by
  induction k', hk using Nat.le_induction with
  | base => rfl
  | succ k' hk' ih => rw [fill_succ_of_le n z par f g₀ k' j (by omega)]; exact ih

/-- The filled table: the rows after all n steps, from the constant start table. -/
def filled : Fin (n + 1) → α := fill n z par f (fun _ => z) n

/-- Every row j ≤ k of the table after k ≤ n steps, from any start table, is the filled table's row. -/
theorem fill_eq_filled (hpar : ∀ i : Fin n, (par i).val ≤ i.val) (g₀ : Fin (n + 1) → α) (k : ℕ) (hk : k ≤ n)
    (j : Fin (n + 1)) (hj : j.val ≤ k) : fill n z par f g₀ k j = filled n z par f j := by
  unfold filled
  rw [fill_indep n z par f hpar g₀ (fun _ => z) k j hj]
  exact (fill_stable n z par f (fun _ => z) k n hk j hj).symm

/-- The filled table's row 0 is the start value. -/
theorem filled_zero : filled n z par f 0 = z := fill_zero n z par f _ n

/-- The filled table is the recursion: row i + 1 is f i of row par i. -/
theorem filled_succ (hpar : ∀ i : Fin n, (par i).val ≤ i.val) (i : Fin n) :
    filled n z par f ⟨i.val + 1, Nat.succ_lt_succ i.isLt⟩ = f i (filled n z par f (par i)) := by
  unfold filled
  rw [fill_stable n z par f (fun _ => z) (i.val + 1) n i.isLt ⟨i.val + 1, Nat.succ_lt_succ i.isLt⟩ (le_refl _)]
  rw [fill, dif_pos i.isLt, Function.update_self]
  rw [fill_stable n z par f (fun _ => z) i.val n (le_of_lt i.isLt) (par i) (hpar i)]

/-- What step k < n writes into row k + 1, read from any start table: f k of the filled table's row par k. -/
theorem fill_step (hpar : ∀ i : Fin n, (par i).val ≤ i.val) (g₀ : Fin (n + 1) → α) (k : Fin n) :
    f k (fill n z par f g₀ k.val (par k)) = filled n z par f ⟨k.val + 1, Nat.succ_lt_succ k.isLt⟩ := by
  rw [fill_eq_filled n z par f hpar g₀ k.val (le_of_lt k.isLt) (par k) (hpar k), filled_succ n z par f hpar k]

end Fill

end LibLstmCell

end
-- ==== Proof.LibSiluRows.lean ====
/-
  Dense layers with the samples down the rows, read one row at a time, on the extended reals.

  The activations of N samples are held as an array [N, K]: row r is the vector of sample r. A layer with weights
  w : [M, K] and a bias b : [M] computes  h times the transpose of w  plus b broadcast down the N rows. Entry (r, o)
  of the product is the sum over k of h(r,k) * w(o,k): it reads row r of h and no other row, and each product is the
  product w(o,k) * h(r,k) of the network's dense layer with its two factors exchanged. The bias adds b(o) in every
  row. So row r of the layer's result is SiluNet.dense applied to row r of h: the rows do not mix. SiLU written out as
  z * (1 / (1 + e^(-z))), with the constant one broadcast from a scalar, is z * logistic z by the definition of the
  logistic. Nothing is assumed finite.

  Generic in the number N of rows.
-/
import Idealize.ShloMosaic.Lib.Pipeline.Value
import Idealize.ShloMosaic.Lib.ValueIdx
import proofs.«161170_j70102456205450_2_alg».proof.Proof.LibPlainDot
import proofs.«161170_j70102456205450_2_alg».proof.Proof.LibLstmCell
import proofs.«161170_j70102456205450_2_alg».proof.Proof.LibSiluSample

noncomputable section

namespace SiluNet.Rows

open Idealize.ShloMosaic Idealize.ShloMosaic.ValueIdx

variable {N : ℕ}

/-- Row r of an [N, K] array: the vector of sample r. -/
def row {K : ℕ} (h : (⟨2, ![N, K]⟩ : Shape).Idx → EReal) (r : Fin N) : Fin K → EReal := fun k => h (ix2 r k)

/-- A layer's affine map in row layout: activations times the transposed weights, plus the bias broadcast to a row
    and then down the rows. -/
def affine {M K : ℕ} (w : FVec Ideal ⟨2, ![M, K]⟩ .f32) (h : FVec Ideal ⟨2, ![N, K]⟩ .f32) (b : FVec Ideal ⟨1, ![M]⟩ .f32)
    (ht : (⟨2, ![M, K]⟩ : Shape).Transposes [1, 0] ⟨2, ![K, M]⟩)
    (h1 : (⟨1, ![M]⟩ : Shape).BroadcastsInDim ⟨2, ![1, M]⟩ ![1])
    (h2 : (⟨2, ![1, M]⟩ : Shape).BroadcastsInDim ⟨2, ![N, M]⟩ ![0, 1]) : FVec Ideal ⟨2, ![N, M]⟩ .f32 :=
  addf (Host.dotGeneral (DotDims.plain N K M) none h (transpose ⟨2, ![K, M]⟩ [1, 0] w ht))
    (broadcastInDim ⟨2, ![N, M]⟩ ![0, 1] h2 (broadcastInDim ⟨2, ![1, M]⟩ ![1] h1 b))

/-- SiLU written out: z times the quotient of one by one plus e^(-z), the ones broadcast from a scalar constant. -/
def silu {M : ℕ} (p : FVec Ideal ⟨2, ![N, M]⟩ .f32)
    (h0 : (⟨0, ![]⟩ : Shape).BroadcastsInDim ⟨2, ![N, M]⟩ ![]) : FVec Ideal ⟨2, ![N, M]⟩ .f32 :=
  mulf p (Host.divf (broadcastInDim ⟨2, ![N, M]⟩ ![] h0 (constant ⟨0, ![]⟩ .f32 0x3F800000#32))
    (addf (broadcastInDim ⟨2, ![N, M]⟩ ![] h0 (constant ⟨0, ![]⟩ .f32 0x3F800000#32)) (Host.exp (Host.negf p))))

/-- The scalar constant 1.0 broadcast to an array is the extended real one at every entry. -/
theorem one_apply {M : ℕ} (h0 : (⟨0, ![]⟩ : Shape).BroadcastsInDim ⟨2, ![N, M]⟩ ![]) (j : (⟨2, ![N, M]⟩ : Shape).Idx) :
    (broadcastInDim ⟨2, ![N, M]⟩ ![] h0 (constant (F := Ideal) ⟨0, ![]⟩ .f32 0x3F800000#32) j : EReal) = 1 := by
  rw [broadcastInDim_apply ![] h0 _ j ix0 (fun a => a.elim0)]
  exact LibLstmCell.ofBits_one_f32

/-- SiLU written out is z * logistic z at every entry. -/
theorem silu_apply {M : ℕ} (p : FVec Ideal ⟨2, ![N, M]⟩ .f32)
    (h0 : (⟨0, ![]⟩ : Shape).BroadcastsInDim ⟨2, ![N, M]⟩ ![]) (j : (⟨2, ![N, M]⟩ : Shape).Idx) :
    (silu p h0 j : EReal) = act (p j) := by
  show (p j : EReal) * Ideal.div (broadcastInDim ⟨2, ![N, M]⟩ ![] h0 (constant (F := Ideal) ⟨0, ![]⟩ .f32 0x3F800000#32) j)
      ((broadcastInDim ⟨2, ![N, M]⟩ ![] h0 (constant (F := Ideal) ⟨0, ![]⟩ .f32 0x3F800000#32) j : EReal)
        + Ideal.exp (-(p j))) = _
  rw [one_apply]
  rfl

/-- Row r of the affine map is the dense layer of row r. -/
theorem affine_row {M K : ℕ} (w : FVec Ideal ⟨2, ![M, K]⟩ .f32) (h : FVec Ideal ⟨2, ![N, K]⟩ .f32) (b : FVec Ideal ⟨1, ![M]⟩ .f32)
    (ht : (⟨2, ![M, K]⟩ : Shape).Transposes [1, 0] ⟨2, ![K, M]⟩)
    (h1 : (⟨1, ![M]⟩ : Shape).BroadcastsInDim ⟨2, ![1, M]⟩ ![1])
    (h2 : (⟨2, ![1, M]⟩ : Shape).BroadcastsInDim ⟨2, ![N, M]⟩ ![0, 1]) (r : Fin N) :
    row (affine w h b ht h1 h2) r = dense (wtab w) (bvec b) (row h r) := by
  funext o
  show FloatOps.dotGeneral (DotDims.plain N K M) none .single h (transpose ⟨2, ![K, M]⟩ [1, 0] w ht) (ix2 r o)
      + broadcastInDim ⟨2, ![N, M]⟩ ![0, 1] h2 (broadcastInDim ⟨2, ![1, M]⟩ ![1] h1 b) (ix2 r o)
      = (∑ k : Fin K, wtab w o k * row h r k) + bvec b o
  rw [PlainDot.dotGeneral_apply]
  refine congrArg₂ (· + ·) (Finset.sum_congr rfl fun k _ => ?_) ?_
  · show (h (ix2 r k) : EReal) * transpose ⟨2, ![K, M]⟩ [1, 0] w ht (ix2 k o) = w (ix2 o k) * h (ix2 r k)
    rw [transpose_apply [1, 0] w ht (ix2 k o) (ix2 o k) (fun a => match a with
      | ⟨0, _⟩ => rfl
      | ⟨1, _⟩ => rfl)]
    exact mul_comm _ _
  · rw [broadcastInDim_apply ![0, 1] h2 _ (ix2 r o) (ix2 (0 : Fin 1) o) (fun a => match a with
        | ⟨0, _⟩ => by show 0 = if (1 : ℕ) = 1 then 0 else r.val; rw [if_pos rfl]
        | ⟨1, _⟩ => by
          show o.val = if M = 1 then 0 else o.val
          split
          · have := o.isLt; omega
          · rfl),
      broadcastInDim_apply ![1] h1 b (ix2 (0 : Fin 1) o) (ix1 o) (fun a => match a with
        | ⟨0, _⟩ => by
          show o.val = if M = 1 then 0 else o.val
          split
          · have := o.isLt; omega
          · rfl)]
    rfl

/-- Row r of a hidden layer (the affine map, then SiLU written out) is the hidden layer of row r. -/
theorem layer_row {M K : ℕ} (w : FVec Ideal ⟨2, ![M, K]⟩ .f32) (h : FVec Ideal ⟨2, ![N, K]⟩ .f32) (b : FVec Ideal ⟨1, ![M]⟩ .f32)
    (ht : (⟨2, ![M, K]⟩ : Shape).Transposes [1, 0] ⟨2, ![K, M]⟩)
    (h1 : (⟨1, ![M]⟩ : Shape).BroadcastsInDim ⟨2, ![1, M]⟩ ![1])
    (h2 : (⟨2, ![1, M]⟩ : Shape).BroadcastsInDim ⟨2, ![N, M]⟩ ![0, 1])
    (h0 : (⟨0, ![]⟩ : Shape).BroadcastsInDim ⟨2, ![N, M]⟩ ![]) (r : Fin N) :
    row (silu (affine w h b ht h1 h2) h0) r = hidden (wtab w) (bvec b) (row h r) := by
  funext o
  have e := congrFun (affine_row w h b ht h1 h2 r) o
  show (silu (affine w h b ht h1 h2) h0 (ix2 r o) : EReal) = act (dense (wtab w) (bvec b) (row h r) o)
  rw [silu_apply]
  exact congrArg act e

end SiluNet.Rows

end
-- ==== Proof.RefValue.lean ====
/-
  The reference's result array, one row at a time.

  The reference keeps the samples down the rows. Its result is the composition of seven hidden layers (activations
  times the transposed weights, plus the bias broadcast down the rows, then SiLU written out with a negation, an
  exponential, a sum with one and a quotient) and an output layer without activation. Row s of every layer's
  result is that layer of the network applied to row s of its input (the rows do not mix), so row s of the result is
  the network at sample s, whose one input is row s of the argument column: the result array of the specification.
-/
import proofs.«161170_j70102456205450_2_alg».proof.Proof.RefRunPatched
import proofs.«161170_j70102456205450_2_alg».proof.Proof.LibSiluRows
import proofs.«161170_j70102456205450_2_alg».proof.Proof.Net

set_option maxRecDepth 16384

noncomputable section

namespace Cert.ReferenceIdeal.Whole

open Cert.ReferenceIdeal Cert.ReferenceIdeal.Gen Idealize.ShloMosaic Idealize.ShloMosaic.TcCoe Idealize.SL.Sem
open Idealize.ShloMosaic.ValueIdx SiluNet

variable (m : (ℓ : Loc nD τ sig) → Buf (Elt Ideal) ℓ)

/-- The composed term of the reference's result, layer by layer in row layout. -/
def layers (c : Dev nD) : FVec Ideal S1048576x1 .f32 :=
  Rows.affine (m ((c.tc : Thread nD τ).loc main_arg15))
      (Rows.silu (Rows.affine (m ((c.tc : Thread nD τ).loc main_arg13))
      (Rows.silu (Rows.affine (m ((c.tc : Thread nD τ).loc main_arg11))
      (Rows.silu (Rows.affine (m ((c.tc : Thread nD τ).loc main_arg9))
      (Rows.silu (Rows.affine (m ((c.tc : Thread nD τ).loc main_arg7))
      (Rows.silu (Rows.affine (m ((c.tc : Thread nD τ).loc main_arg5))
      (Rows.silu (Rows.affine (m ((c.tc : Thread nD τ).loc main_arg3))
      (Rows.silu (Rows.affine (m ((c.tc : Thread nD τ).loc main_arg1)) (m ((c.tc : Thread nD τ).loc main_arg0)) (m ((c.tc : Thread nD τ).loc main_arg2)) transposes_S20x1_S1x20_1_0 bcast_S20_S1x20_1 bcast_S1x20_S1048576x20_0_1) bcast_S_S1048576x20)
      (m ((c.tc : Thread nD τ).loc main_arg4)) transposes_S20x20_S20x20_1_0 bcast_S20_S1x20_1 bcast_S1x20_S1048576x20_0_1) bcast_S_S1048576x20)
      (m ((c.tc : Thread nD τ).loc main_arg6)) transposes_S20x20_S20x20_1_0 bcast_S20_S1x20_1 bcast_S1x20_S1048576x20_0_1) bcast_S_S1048576x20)
      (m ((c.tc : Thread nD τ).loc main_arg8)) transposes_S20x20_S20x20_1_0 bcast_S20_S1x20_1 bcast_S1x20_S1048576x20_0_1) bcast_S_S1048576x20)
      (m ((c.tc : Thread nD τ).loc main_arg10)) transposes_S20x20_S20x20_1_0 bcast_S20_S1x20_1 bcast_S1x20_S1048576x20_0_1) bcast_S_S1048576x20)
      (m ((c.tc : Thread nD τ).loc main_arg12)) transposes_S20x20_S20x20_1_0 bcast_S20_S1x20_1 bcast_S1x20_S1048576x20_0_1) bcast_S_S1048576x20)
      (m ((c.tc : Thread nD τ).loc main_arg14)) transposes_S20x20_S20x20_1_0 bcast_S20_S1x20_1 bcast_S1x20_S1048576x20_0_1) bcast_S_S1048576x20)
      (m ((c.tc : Thread nD τ).loc main_arg16)) transposes_S1x20_S20x1_1_0 bcast_S1_S1x1_1 bcast_S1x1_S1048576x1_0_1

set_option maxHeartbeats 4000000 in
/-- The reference's composed term IS those layers: the same operations, with each layer's input named once. -/
theorem res_eq (c : Dev nD) : ValueP.res_main_v46 (F := Ideal) m c = layers m c := by
  unfold ValueP.res_main_v46 layers
  rfl

/-- Row s of the layers is the network at row s of the argument column. -/
theorem layers_row (c : Dev nD) (s : Fin 1048576) :
    Rows.row (layers m c) s = net (argParams (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) (Rows.row (m ((c.tc : Thread nD τ).loc main_arg0)) s) := by
  unfold layers
  rw [Rows.affine_row, Rows.layer_row, Rows.layer_row, Rows.layer_row, Rows.layer_row, Rows.layer_row, Rows.layer_row,
    Rows.layer_row]
  rfl

/-- THE REFERENCE'S RESULT is the result array of the specification. -/
theorem value (c : Dev nD) :
    ValueP.res_main_v46 (F := Ideal) m c = result (m ((c.tc : Thread nD τ).loc main_arg0)) (argParams (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))) := by
  rw [res_eq]
  funext i
  obtain ⟨s, o, rfl⟩ : ∃ (s : Fin 1048576) (o : Fin 1), i = ix2 s o := ⟨i 0, i 1, eq_ix2 i⟩
  exact congrFun (layers_row m c s) o

end Cert.ReferenceIdeal.Whole

end
-- ==== Proof.lean ====
/-
  The kernel and its reference compute one function, sample by sample.

  Both programs evaluate the same perceptron (seven dense layers of width 20 with the SiLU activation, then a dense
  output layer) at 1048576 samples, each sample having one input. The reference keeps the samples down the rows of
  its arrays and multiplies activations by transposed weights; the kernel flattens the input column into a row, keeps
  the samples along the lanes, multiplies weights by activations over a grid of 8 blocks of lanes, and re-lays the
  output row as a column. In either layout a layer's value at a sample reads that sample's activations only, so both
  results are, row by row, the network of Proof/Net.lean at that row's input: the kernel's products w(o,k) * h(k)
  are the reference's h(k) * w(o,k) with the factors exchanged, its logistic is by definition the quotient
  1 / (1 + e^(-z)) the reference spells out, and the re-layings keep row-major order. Commutativity of the product
  on the extended reals is the only law used, so nothing has to be finite and the precondition is never opened.

  The three programs' runs: the two kernels' frames are the generated ones; the reference's run, with its result's
  composed term, is Proof/RefRunPatched.lean. The idealization rewrote no operation, so there is nothing to preserve.
-/
import proofs.«161170_j70102456205450_2_alg».proof.Defs
import proofs.«161170_j70102456205450_2_alg».proof.Proof.Gen.Kernel
import proofs.«161170_j70102456205450_2_alg».proof.Proof.Gen.Kernel.Skeleton
import proofs.«161170_j70102456205450_2_alg».proof.Proof.Gen.Kernel.Launch
import proofs.«161170_j70102456205450_2_alg».proof.Proof.Gen.Kernel.Points
import proofs.«161170_j70102456205450_2_alg».proof.Proof.Gen.Kernel.Frame
import proofs.«161170_j70102456205450_2_alg».proof.Proof.Gen.KernelIdeal
import proofs.«161170_j70102456205450_2_alg».proof.Proof.Gen.KernelIdeal.Skeleton
import proofs.«161170_j70102456205450_2_alg».proof.Proof.Gen.KernelIdeal.Launch
import proofs.«161170_j70102456205450_2_alg».proof.Proof.Gen.KernelIdeal.Points
import proofs.«161170_j70102456205450_2_alg».proof.Proof.Gen.KernelIdeal.Frame
import proofs.«161170_j70102456205450_2_alg».proof.Proof.Gen.ReferenceIdeal
import proofs.«161170_j70102456205450_2_alg».proof.Proof.Gen.Pre_finite_inputs
import proofs.«161170_j70102456205450_2_alg».proof.Proof.KernelValue
import proofs.«161170_j70102456205450_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped: it terminates and leaves its arguments as launched. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealized kernel is the kernel's own text: no operation was rewritten. -/
theorem preserves : Cert.preserves_Kernel_KernelIdeal := trivial

/-- From memories agreeing on the seventeen arguments, both programs end with the result array at the
    specification's function of the kernel's arguments: the kernel by its run read through the blocks and the re-laying
    lines, the reference by its composed term read row by row, the arguments' agreement rewritten. -/
theorem algebraic : Cert.algebraic_KernelIdeal_ReferenceIdeal := by
  intro m ρ m' ρ' _ hagree
  refine ⟨fun c => SiluNet.result (m ((c.tc : Thread Cert.KernelIdeal.nD Cert.KernelIdeal.τ).loc Cert.KernelIdeal.main_arg0)) (SiluNet.argParams (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))),
    Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Whole.value]
  obtain ⟨a0, a1, a2, a3, a4, a5, a6, a7, a8, a9, a10, a11, a12, a13, a14, a15, a16⟩ := hagree c
  rw [a0, a1, a2, a3, a4, a5, a6, a7, a8, a9, a10, a11, a12, a13, a14, a15, a16]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
